-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S64x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S5000x1 : Shape := ⟨2, ![5000, 1]⟩
abbrev S1x128 : Shape := ⟨2, ![1, 128]⟩
abbrev S5000x64 : Shape := ⟨2, ![5000, 64]⟩
abbrev S1x64 : Shape := ⟨2, ![1, 64]⟩
abbrev S1x1 : Shape := ⟨2, ![1, 1]⟩

abbrev nBuf : Space → Nat
  | .hbm => 89
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S_, .f32⟩
  | .hbm, ⟨25, _⟩ => ⟨S1600000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S100000, .f32⟩
  | .hbm, ⟨51, _⟩ => ⟨S100000x1, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S1600000x1, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S1600000x1, .f32⟩
  | .hbm, ⟨81, _⟩ => ⟨S1600000x128, .f32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x128, .f32⟩
  | .hbm, ⟨88, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S64, .f32⟩
  | .local _ .vmem, ⟨32, _⟩ => ⟨S64x1, .f32⟩
  | .local _ .vmem, ⟨33, _⟩ => ⟨S1, .f32⟩
  | .local _ .vmem, ⟨34, _⟩ => ⟨S5000x1, .f32⟩
  | .local _ .vmem, ⟨35, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1.size a ≤ S1.size a
  hwx4_4 : ∀ i : grid4.Coords, EltTy.bits .f32 = 32 ∨ (Rect.block (s := S1) S1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S100000x1.size a
  hwx4_5 : ∀ i : grid4.Coords, EltTy.bits .f32 = 32 ∨ (Rect.block (s := S100000x1) S5000x1.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v63) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩
abbrev S1x1 : Shape := ⟨2, ![1, 1]⟩

abbrev nBuf : Space → Nat
  | .hbm => 168
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S100000x128, .f32⟩
  | 15 => ⟨S_, .f32⟩
  | 16 => ⟨S100000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S_, .f32⟩
  | 26 => ⟨S1600000, .f32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S1600000x1, .f32⟩
  | 61 => ⟨S1600000x128, .f32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000, .f32⟩
  | 68 => ⟨S100000x1, .f32⟩
  | 69 => ⟨S100000x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S_, .f32⟩
  | 77 => ⟨S100000x128, .f32⟩
  | 78 => ⟨S100000x128, .i1⟩
  | 79 => ⟨S_, .f32⟩
  | 80 => ⟨S100000x128, .f32⟩
  | 81 => ⟨S100000x128, .f32⟩
  | 82 => ⟨S100000x128, .f32⟩
  | 83 => ⟨S100000x128, .f32⟩
  | 84 => ⟨S_, .f32⟩
  | 85 => ⟨S100000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S_, .f32⟩
  | 95 => ⟨S1600000, .f32⟩
  | 96 => ⟨S100000, .f32⟩
  | 97 => ⟨S_, .f32⟩
  | 98 => ⟨S100000, .f32⟩
  | 99 => ⟨S100000, .f32⟩
  | 100 => ⟨S100000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000, .f32⟩
  | 119 => ⟨S1600000, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x128, .f32⟩
  | 1 => ⟨S1600000x1, .f32⟩
  | 2 => ⟨S1600000x128, .f32⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S100000, .f32⟩
  | 9 => ⟨S100000x1, .f32⟩
  | 10 => ⟨S100000x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S_, .f32⟩
  | 18 => ⟨S100000x128, .f32⟩
  | 19 => ⟨S100000x128, .i1⟩
  | 20 => ⟨S_, .f32⟩
  | 21 => ⟨S100000x128, .f32⟩
  | 22 => ⟨S100000x128, .f32⟩
  | 23 => ⟨S100000x128, .f32⟩
  | 24 => ⟨S100000x64, .f32⟩
  | 25 => ⟨S1x64, .f32⟩
  | 26 => ⟨S100000x64, .f32⟩
  | 27 => ⟨S100000x64, .f32⟩
  | 28 => ⟨S_, .f32⟩
  | 29 => ⟨S_, .f32⟩
  | 30 => ⟨S100000x64, .f32⟩
  | 31 => ⟨S100000x64, .i1⟩
  | 32 => ⟨S_, .f32⟩
  | 33 => ⟨S100000x64, .f32⟩
  | 34 => ⟨S100000x64, .f32⟩
  | 35 => ⟨S100000x64, .f32⟩
  | 36 => ⟨S100000x1, .f32⟩
  | 37 => ⟨S1x1, .f32⟩
  | 38 => ⟨S100000x1, .f32⟩
  | 39 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_cst_15 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_16 : Ref sig .tc := ⟨.hbm, 101, rfl⟩
abbrev main_v67 : Ref sig .tc := ⟨.hbm, 102, rfl⟩
abbrev main_v68 : Ref sig .tc := ⟨.hbm, 103, rfl⟩
abbrev main_c_17 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_c_19 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_20 : Ref sig .tc := ⟨.hbm, 120, rfl⟩
abbrev main_v82 : Ref sig .tc := ⟨.hbm, 121, rfl⟩
abbrev main_v83 : Ref sig .tc := ⟨.hbm, 122, rfl⟩
abbrev main_c_21 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_22 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_23 : Ref sig .tc := ⟨.hbm, 144, rfl⟩
abbrev main_call1_cst : Ref sig .tc := ⟨.hbm, 145, rfl⟩
abbrev main_call1_v0 : Ref sig .tc := ⟨.hbm, 146, rfl⟩
abbrev main_call1_v1 : Ref sig .tc := ⟨.hbm, 147, rfl⟩
abbrev main_call1_v2 : Ref sig .tc := ⟨.hbm, 148, rfl⟩
abbrev main_call1_v3 : Ref sig .tc := ⟨.hbm, 149, rfl⟩
abbrev main_call1_v4 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_24 : Ref sig .tc := ⟨.hbm, 156, rfl⟩
abbrev main_call2_cst : Ref sig .tc := ⟨.hbm, 157, rfl⟩
abbrev main_call2_v0 : Ref sig .tc := ⟨.hbm, 158, rfl⟩
abbrev main_call2_v1 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
import Idealize.ShloMosaic.PureOps.Ideal
import Idealize.ShloMosaic.Lib.ValueIdx

/-!
# The two-layer graph convolution with a decoding head, as one function of the argument arrays

Over the extended reals. A node table `x : [100000,128]`, an edge list `ei : [2,1600000]`, two graph
convolution layers (weights `[128,128]`, bias `[128]`) and a two-layer head (`[128,64]`, `[64]`, `[64,1]`, `[1]`).

* `mm x w` is the matrix product: entry `(p, j)` is `∑ k, x (p, k) * w (k, j)`.
* `leaky v` is `v` where `v ≥ 0` and `0.01·v` elsewhere (the slope is the binary32 word nearest to 1/100, the
  same word wherever it is used, never evaluated).
* `combine a h d b` is one layer's exit: `leaky (a + h · d + b)` entry by entry, with `d` a column (one
  value per node: the self-loop weight) and `b` a row (one value per feature).
* `decode o Wd1 bd1 Wd2 bd2` is the head: `leaky (o · Wd1 + bd1) · Wd2 + bd2`.
* The message passing between the dense steps — the degree count, its inverse square root, the edge weights,
  the gather of source rows and the scatter-add into destination rows — is the same chain of array
  operations in both programs; it is carried as two opaque functions (`Glue`): `agg h ei`, the aggregated
  messages of a feature table `h`, and `dsq ei`, the column of self-loop weights.
* `out g …` is the whole network over such a pair.
-/

noncomputable section

namespace Cert.Spec

open Idealize.ShloMosaic Idealize.ShloMosaic.ValueIdx

abbrev N : Nat := 100000
abbrev E : Nat := 1600000

abbrev SNx128 : Shape := ⟨2, ![100000, 128]⟩
abbrev SNx64 : Shape := ⟨2, ![100000, 64]⟩
abbrev SNx1 : Shape := ⟨2, ![100000, 1]⟩
abbrev S2xE : Shape := ⟨2, ![2, 1600000]⟩
abbrev S128x128 : Shape := ⟨2, ![128, 128]⟩
abbrev S128x64 : Shape := ⟨2, ![128, 64]⟩
abbrev S64x1 : Shape := ⟨2, ![64, 1]⟩
abbrev S128 : Shape := ⟨1, ![128]⟩
abbrev S64 : Shape := ⟨1, ![64]⟩
abbrev S1 : Shape := ⟨1, ![1]⟩

/-- The matrix product of an `[R,K]` and a `[K,C]` array, entry by entry. -/
def mm {R K C : Nat} (x : (⟨2, ![R, K]⟩ : Shape).Idx → EReal) (w : (⟨2, ![K, C]⟩ : Shape).Idx → EReal) :
    (⟨2, ![R, C]⟩ : Shape).Idx → EReal :=
  fun i => ∑ k : Fin K, x (ix2 (i 0) k) * w (ix2 k (i 1))

/-- The leaky rectifier with slope the binary32 word `0x3C23D70A`: `v` where `v ≥ 0`, slope · `v` elsewhere. -/
def leaky (v : EReal) : EReal :=
  Scalar.select (FloatOps.cmpf (F := Ideal) (φ := .f32) .oge v (Ideal.ofBits .f32 0x00000000#32)) v
    (Ideal.ofBits .f32 0x3C23D70A#32 * v)

/-- One layer's exit: aggregated messages plus the self-loop term plus the bias, through the rectifier. -/
def combine (a h : SNx128.Idx → EReal) (d : SNx1.Idx → EReal) (b : S128.Idx → EReal) : SNx128.Idx → EReal :=
  fun i => leaky (a i + h i * d (ix2 (i 0) 0) + b (ix1 (i 1)))

/-- The head: a dense layer to 64 features through the rectifier, then a dense layer to one value. -/
def decode (o : SNx128.Idx → EReal) (wd1 : S128x64.Idx → EReal) (bd1 : S64.Idx → EReal)
    (wd2 : S64x1.Idx → EReal) (bd2 : S1.Idx → EReal) : SNx1.Idx → EReal :=
  fun i => (∑ k : Fin 64, leaky (mm o wd1 (ix2 (i 0) k) + bd1 (ix1 k)) * wd2 (ix2 k (i 1))) + bd2 (ix1 (i 1))

/-- The message passing both programs share, as two functions of the edge list. -/
structure Glue where
  /-- the aggregated, edge-weighted messages of a feature table -/
  agg : (SNx128.Idx → EReal) → (S2xE.Idx → BitVec 32) → (SNx128.Idx → EReal)
  /-- the column of self-loop weights (the inverse degree) -/
  dsq : (S2xE.Idx → BitVec 32) → (SNx1.Idx → EReal)

/-- One graph convolution layer over the shared message passing. -/
def layer (g : Glue) (inp : SNx128.Idx → EReal) (w : S128x128.Idx → EReal) (b : S128.Idx → EReal)
    (ei : S2xE.Idx → BitVec 32) : SNx128.Idx → EReal :=
  combine (g.agg (mm inp w) ei) (mm inp w) (g.dsq ei) b

/-- The whole network. -/
def out (g : Glue) (x : SNx128.Idx → EReal) (ei : S2xE.Idx → BitVec 32) (w1 : S128x128.Idx → EReal) (b1 : S128.Idx → EReal)
    (w2 : S128x128.Idx → EReal) (b2 : S128.Idx → EReal) (wd1 : S128x64.Idx → EReal) (bd1 : S64.Idx → EReal)
    (wd2 : S64x1.Idx → EReal) (bd2 : S1.Idx → EReal) : SNx1.Idx → EReal :=
  decode (layer g (layer g x w1 b1 ei) w2 b2 ei) wd1 bd1 wd2 bd2

end Cert.Spec

end
-- ==== Proof.KGlue.lean ====
import proofs.«130374_j21500606284503_1_alg».proof.KernelIdeal
import proofs.«130374_j21500606284503_1_alg».proof.Proof.Gen.KernelIdeal
import proofs.«130374_j21500606284503_1_alg».proof.Proof.Spec
import Idealize.ShloMosaic.PureOps.Ideal

/-!
# The message passing of the kernel program, as functions of the edge list

Between its dense steps the kernel program counts each node's degree over the edge list, takes the inverse square
root, weights each edge by its two ends, gathers each edge's source row of a feature table, scales it, and adds it
into the edge's destination row. These are plain array operations of the program; here they are named, as
functions of the edge list `ei : [2,1600000]` (and of the feature table), over the extended reals.
-/

noncomputable section
namespace Cert.KernelIdeal.KGlue
open Cert.KernelIdeal
open Idealize.ShloMosaic Idealize.ShloMosaic.TcCoe
open Facts₀ Facts

/-- the source node of each edge: row 0 of the edge list -/
def row (ei : IVec S2x1600000 32) : IVec S1600000 32 :=
  shapeCast S1600000 (extractStridedSlice S1x1600000 ![0, 0] ei slices_S2x1600000_S1x1600000_0_0) shapeCasts_S1x1600000_S1600000
/-- the destination node of each edge: row 1 of the edge list -/
def col (ei : IVec S2x1600000 32) : IVec S1600000 32 :=
  shapeCast S1600000 (extractStridedSlice S1x1600000 ![1, 0] ei slices_S2x1600000_S1x1600000_1_0) shapeCasts_S1x1600000_S1600000
/-- a negative node number counted from the end: `v + 100000` where `v < 0` -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v
/-- the inverse square root of each node's degree (edges arriving, plus one for the self-loop) -/
def dinv (ei : IVec S2x1600000 32) : FVec Ideal S100000 .f32 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 (wrap (col ei)))
      (broadcastInDim S1600000 ![] bcast_S_S1600000 (constant S_ .f32 0x3F800000#32)))
    (broadcastInDim S100000 ![] bcast_S_S100000 (constant S_ .f32 0x3F800000#32)))
/-- each edge's weight: the product of its two ends' inverse square root degrees -/
def norm (ei : IVec S2x1600000 32) : FVec Ideal S1600000 .f32 :=
  mulf
    (Host.gather gather_S100000_S1600000x1_S1600000_n_0_n_n_0_1_1 (dinv ei)
      (broadcastInDim S1600000x1 ![0] bcast_S1600000_S1600000x1_0 (wrap (row ei))))
    (Host.gather gather_S100000_S1600000x1_S1600000_n_0_n_n_0_1_1 (dinv ei)
      (broadcastInDim S1600000x1 ![0] bcast_S1600000_S1600000x1_0 (wrap (col ei))))
/-- the aggregated messages of a feature table: each edge carries its source row times its weight to its destination row -/
def agg (h : FVec Ideal S100000x128 .f32) (ei : IVec S2x1600000 32) :
    FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (col ei))
    (mulf
      (Host.gather gather_S100000x128_S1600000x1_S1600000x128_1_0_n_n_0_1_1128 h
        (broadcastInDim S1600000x1 ![0] bcast_S1600000_S1600000x1_0 (wrap (row ei))))
      (broadcastInDim S1600000x128 ![0, 1] bcast_S1600000x1_S1600000x128_0_1
        (broadcastInDim S1600000x1 ![0] bcast_S1600000_S1600000x1_0 (norm ei))))
/-- the column of self-loop weights: the inverse degree -/
def dsq (ei : IVec S2x1600000 32) : FVec Ideal S100000x1 .f32 :=
  broadcastInDim S100000x1 ![0] bcast_S100000_S100000x1_0 (mulf (dinv ei) (dinv ei))
/-- the message passing, in this program's own operations -/
def glue : Cert.Spec.Glue where
  agg := agg
  dsq := dsq

end Cert.KernelIdeal.KGlue
end
-- ==== Proof.KRun.lean ====
import proofs.«130374_j21500606284503_1_alg».proof.Proof.Gen.KernelIdeal.Frame

/-!
# The idealized kernel program's run, with its result named

The program is five pipelined regions among three stretches of array operations. Its contents at each boundary
are a fold from the launch memory: `W1` after the first stretch, `W2` after the first region (its arrays at what
the region's write-backs leave, every other buffer as entered), … `W8` after the last region. Every weakly fair
execution terminates without a fault in a state whose unscoped buffers hold `W8`: in particular the result buffer
holds `W8` at the result, and each argument its launch contents.
-/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents `W8` and every argument array as launched: the launch over the program's eight segments,
    the last thread state read against the final state. -/
theorem run_result : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KRun

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.Region0.lean ====
import proofs.«130374_j21500606284503_1_alg».proof.Proof.Gen.KernelIdeal.Frame
import proofs.«130374_j21500606284503_1_alg».proof.Proof.Spec
import proofs.«130374_j21500606284503_1_alg».proof.Proof.LibSoftplus
import Idealize.ShloMosaic.Lib.Pipeline.Value

/-!
# The first matrix-product region as a whole-array function

The region walks the 100000 rows of its left operand in twenty blocks of 5000 rows. At each point the body multiplies
the point's row block `[5000,128]` by the whole weight `[128,128]` into a zero accumulator and stores the `[5000,128]`
result as the same row block of the output. Over the extended reals a change of format is the identity and the
accumulated product is the plain sum over the contracted coordinate, so

* `pay0_apply`: the body's payload at `(p, q)` is `∑ k, x0 (p, k) * x1 (k, q)`;
* `idx_facts0`: the left operand's and the output's row block at point `t` is block `t`; the weight's block is block 0;
* `iblk0_0_apply`, `iblk0_1_apply`: an input block's entry is the array's entry at block index × block size + the
  coordinate inside the block;
* `flushed0_eq`: what point `t` writes back is block `t` of the matrix product of the two arrays;
* `cover0`: row `r` lies in the block of point `r / 5000`;
* `region0`: after the twenty points the output array is `Cert.Spec.mm` of the two input arrays as the region finds them.
-/

noncomputable section

namespace Cert.KernelIdeal.RegionValue

open Idealize.ShloMosaic Idealize.ShloMosaic.TcCoe Idealize.SL.Sem Cert.KernelIdeal Cert.KernelIdeal.Gen
open Idealize.ShloMosaic.ValueIdx
open scoped BigOperators

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-- The product's dimension numbers are the plain ones: contract the left operand's columns with the right operand's rows. -/
theorem dot_is_plain : dot_S5000x128_S128x128_S5000x128_1_0_0_1_n_n = DotDims.plain 5000 128 128 := rfl

/-- The body's payload at an entry: both operands keep their values through the change of format, and the product
    into a zero accumulator is the sum over the contracted coordinate. -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.Lib.Softplus.matmul0_plain_apply _ dot_is_plain none _ _ p q

/-- The printed index maps over the grid: the left operand's and the output's row block is the point's number, the
    weight's block is always the first, and no window moves along the columns. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- One entry of a row block of the product, over variables: when the left block's row `p` is row `i 0` of `a0` and
    the right block's column `q` is column `i 1` of `a1`, the payload at `(p, q)` is the matrix product at `i`. -/
theorem pay0_block (a0 : S100000x128.Idx → EReal) (a1 : S128x128.Idx → EReal)
    (x0 : Vec Ideal S5000x128 .f32) (x1 : Vec Ideal S128x128 .f32) (p : Fin 5000) (q : Fin 128) (i : S100000x128.Idx)
    (h0 : ∀ k : Fin 128, x0 (ix2 p k) = a0 (ix2 (i 0) k))
    (h1 : ∀ k : Fin 128, x1 (ix2 k q) = a1 (ix2 k (i 1))) :
    k0_pay1 (F := Ideal) x0 x1 (ix2 p q) = Cert.Spec.mm a0 a1 i := by
  rw [pay0_apply]
  show _ = ∑ k : Fin 128, a0 (ix2 (i 0) k) * a1 (ix2 k (i 1))
  exact Finset.sum_congr rfl fun k _ => by rw [h0, h1]

/-- The left operand's block at point `t` is rows `5000 t … 5000 t + 4999` of its array. -/
theorem iblk0_0_apply (c : Dev nD) (t : Fin cfg0.N) (x : S5000x128.Idx) (k : S100000x128.Idx)
    (hk0 : (k 0).val = t.val * 5000 + (x 0).val) (hk1 : (k 1).val = (x 1).val) :
    (iblk0 V c 0 t : Vec Ideal S5000x128 .f32) x = (V c main_arg0 : S100000x128.Idx → EReal) k := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weight's block at every point is the whole weight. -/
theorem iblk0_1_apply (c : Dev nD) (t : Fin cfg0.N) (x : S128x128.Idx) (k : S128x128.Idx)
    (hk0 : (k 0).val = (x 0).val) (hk1 : (k 1).val = (x 1).val) :
    (iblk0 V c 1 t : Vec Ideal S128x128 .f32) x = (V c main_arg2 : S128x128.Idx → EReal) k := by
  obtain ⟨-, -, e2, e3, -, -⟩ := idx_facts0 t
  unfold iblk0
  rw [View.read_apply]
  show V c main_arg2 _ = V c main_arg2 _
  congr 1
  funext a
  apply Fin.ext
  match a with
  | ⟨0, _⟩ => show win0_1.index t 0 * 128 + 1 * (x 0).val = (k 0).val; rw [e2, hk0]; omega
  | ⟨1, _⟩ => show win0_1.index t 1 * 128 + 1 * (x 1).val = (k 1).val; rw [e3, hk1]; omega

/-- What point `t` writes back is block `t` of the matrix product of the two arrays as the region finds them. -/
theorem flushed0_eq (c : Dev nD) (t : Fin cfg0.N) :
    (dat0 V c).flushed 2 t = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, e4, e5⟩ := idx_facts0 t
  funext j
  obtain ⟨p, q, rfl⟩ : ∃ (p : Fin 5000) (q : Fin 128), j = ix2 p q := ⟨j 0, j 1, eq_ix2 j⟩
  refine pay0_block (V c main_arg0) (V c main_arg2) _ _ p q (((cfg0.win 2).blk t).view.emb (ix2 p q)) (fun k => ?_) (fun k => ?_)
  · refine iblk0_0_apply V c t (ix2 p k) _ ?_ rfl
    show win0_2.index t 0 * 5000 + 1 * p.val = t.val * 5000 + p.val
    rw [e4]; omega
  · refine iblk0_1_apply V c t (ix2 k q) _ rfl ?_
    show win0_2.index t 1 * 128 + 1 * q.val = q.val
    rw [e5]; omega

/-- Every row of the output is in the block of the point numbered by its row block. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_2 _, ?_⟩
  rw [mem_blk0]
  obtain ⟨-, -, -, -, e4, e5⟩ := idx_facts0 ⟨(i 0).val / 5000, ht⟩
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 128 ≤ (i 1).val ∧ (i 1).val < win0_2.index ⟨(i 0).val / 5000, ht⟩ 1 * 128 + 128
    rw [e5]; omega

/-- The output array after the region's twenty points: the matrix product of the left operand and the weight as the
    region finds them, entry by entry. -/
theorem region0 (c : Dev nD) :
    (dat0 V c).arrAt 2 cfg0.N = Cert.Spec.mm (V c main_arg0) (V c main_arg2) :=
  (dat0 V c).arrAt_eq_of_cover 2 (Cert.Spec.mm (V c main_arg0) (V c main_arg2)) (fun t _ => flushed0_eq V c t) cover0

end Cert.KernelIdeal.RegionValue

end
-- ==== Proof.Region1.lean ====
/- The first layer's exit region as one function of its entry arrays

The region runs twenty grid points; point t stages rows 5000·t … 5000·t + 4999 of the aggregated messages, of the
feature table and of the self-loop column, and the whole bias, and stores into the same rows of the output
`leaky (a + h · d + b)` entry by entry. Two halves: the stored block at an entry (p, q), over variables; then the
twenty blocks put together — each is the restriction of `Cert.Spec.combine` of the entry arrays to its rows, and
the blocks tile the array.
-/
import proofs.«130374_j21500606284503_1_alg».proof.Proof.Gen.KernelIdeal.Frame
import proofs.«130374_j21500606284503_1_alg».proof.Proof.Spec
import Idealize.ShloMosaic.Lib.Pipeline.Value
import Idealize.ShloMosaic.Lib.ValueIdx

noncomputable section

namespace Cert.KernelIdeal.RegionValue

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

namespace FirstExit

/-! ## The stored block at an entry -/

/-- The column broadcast along the features: entry (p, q) of the [5000,128] array is the column's entry (p, 0). -/
theorem col_apply (x : FVec Ideal S5000x1 .f32) (p : Fin 5000) (q : Fin 128) :
    broadcastTo S5000x128 x broadcasts_S5000x1_S5000x128 (ix2 p q) = x (ix2 p 0) :=
  broadcastTo_apply x broadcasts_S5000x1_S5000x128 (ix2 p q) (ix2 p 0) fun a => by
    match a with
    | ⟨0, _⟩ => rfl
    | ⟨1, _⟩ => rfl

/-- The row cast to [1,128] and broadcast along the rows: entry (p, q) is the row's entry q. -/
theorem row_apply (x : FVec Ideal S128 .f32) (p : Fin 5000) (q : Fin 128) :
    broadcastTo S5000x128 (shapeCast S1x128 x shapeCasts_S128_S1x128) broadcasts_S1x128_S5000x128 (ix2 p q) = x (ix1 q) := by
  refine (broadcastTo_apply _ broadcasts_S1x128_S5000x128 (ix2 p q) (ix2 (0 : Fin 1) q) fun a => ?_).trans ?_
  · match a with
    | ⟨0, _⟩ => rfl
    | ⟨1, _⟩ => rfl
  · refine shapeCast_apply x shapeCasts_S128_S1x128 (ix2 (0 : Fin 1) q) (ix1 q) ?_
    rw [Shape.rowMajor_val_one, Shape.rowMajor_val_two]
    show q.val = (0 : Fin 1).val * 128 + q.val
    simp

/-- The body's payload at entry (p, q): the rectifier of the sum of the first block's entry, the second block's entry
    times the column's entry of row p, and the row's entry of feature q. -/
theorem pay_apply (x0 x1 : Vec Ideal S5000x128 .f32) (x2 : Vec Ideal S5000x1 .f32) (x3 : Vec Ideal S128 .f32)
    (p : Fin 5000) (q : Fin 128) :
    k1_pay1 (F := Ideal) x0 x1 x2 x3 (ix2 p q)
      = Cert.Spec.leaky (x0 (ix2 p q) + x1 (ix2 p q) * x2 (ix2 p 0) + x3 (ix1 q)) := by
  unfold k1_pay1
  simp only [shapeCast_self]
  rw [select_apply, cmpf_apply, mulf_apply, addf_apply, addf_apply, mulf_apply, broadcast_apply, broadcast_apply]
  rw [col_apply, row_apply]
  rfl

/-- The same at any index of the block, its coordinates read off the index. -/
theorem pay_at (x0 x1 : Vec Ideal S5000x128 .f32) (x2 : Vec Ideal S5000x1 .f32) (x3 : Vec Ideal S128 .f32)
    (j : S5000x128.Idx) :
    k1_pay1 (F := Ideal) x0 x1 x2 x3 j
      = Cert.Spec.leaky (x0 j + x1 j * x2 (ix2 (j 0) 0) + x3 (ix1 (j 1))) := by
  obtain ⟨p, q, rfl⟩ : ∃ (p : Fin 5000) (q : Fin 128), j = ix2 p q := ⟨j 0, j 1, eq_ix2 j⟩
  exact pay_apply x0 x1 x2 x3 p q

/-- The layer's exit at one entry with each array read at its own index: when the four indices are the output
    index, the output index, its row in the column and its feature in the bias, this is the exit function there. -/
theorem exit_congr (a h : Cert.Spec.SNx128.Idx → EReal) (d : Cert.Spec.SNx1.Idx → EReal) (b : Cert.Spec.S128.Idx → EReal)
    {i0 i1 i : Cert.Spec.SNx128.Idx} {i2 : Cert.Spec.SNx1.Idx} {i3 : Cert.Spec.S128.Idx}
    (h0 : i0 = i) (h1 : i1 = i) (h2 : i2 = ix2 (i 0) 0) (h3 : i3 = ix1 (i 1)) :
    Cert.Spec.leaky (a i0 + h i1 * d i2 + b i3) = Cert.Spec.combine a h d b i := by
  subst h0 h1 h2 h3; rfl

/-! ## The twenty blocks put together -/

theorem off2 : (![0, 0] : Fin 2 → Nat) = fun _ => 0 := funext fun a => by fin_cases a <;> rfl
theorem off1 : (![0] : Fin 1 → Nat) = fun _ => 0 := funext fun a => by fin_cases a <;> rfl

/-- The printed index maps, decided over the grid: at point t the four row-blocked windows sit at block (t, 0), the
    bias window at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point t writes back to the output's array is block t of the layer's exit function of the region's entry
    arrays: the messages and the feature table read at the same rows, the column at those rows, the bias whole. -/
theorem flushed_eq (c : Dev nD) (t : Fin cfg1.N) :
    (dat1 V c).flushed 4 t = ((cfg1.win 4).blk t).view.read (Elt Ideal)
      (Cert.Spec.combine (V c main_v46) (V c main_v33) (V c main_v32) (V c main_arg3)) := by
  show (cfg1.win 4).cut (grid1.coords t) ((dat1 V c).after 4 t) = _
  rw [after1_4]
  unfold out1_4
  rw [View.canon_unit_zero off2]
  simp only [View.ld_unit_zero (S := S5000x128) off2, View.ld_unit_zero (S := S5000x1) off2, View.ld_unit_zero (S := S128) off1]
  obtain ⟨e00, e01, e10, e11, e20, e21, e30, e40, e41⟩ := idx_facts t
  refine funext fun (j : S5000x128.Idx) => ?_
  refine (pay_at (iblk1 V c 0 t) (iblk1 V c 1 t) (iblk1 V c 2 t) (iblk1 V c 3 t) j).trans ?_
  have hj0 : (j 0).val < 5000 := (j 0).isLt
  have hj1 : (j 1).val < 128 := (j 1).isLt
  have h0 : (((cfg1.win 0).blk t).view.emb j : S100000x128.Idx) = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : (((cfg1.win 1).blk t).view.emb j : S100000x128.Idx) = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have h2 : (((cfg1.win 2).blk t).view.emb (ix2 (j 0) 0 : S5000x1.Idx) : S100000x1.Idx)
      = (ix2 ((((cfg1.win 4).blk t).view.emb j : S100000x128.Idx) 0) 0 : S100000x1.Idx) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : (((cfg1.win 3).blk t).view.emb (ix1 (j 1) : S128.Idx) : S128.Idx)
      = (ix1 ((((cfg1.win 4).blk t).view.emb j : S100000x128.Idx) 1) : S128.Idx) := by
    funext a; apply Fin.ext
    match a with
    | ⟨0, _⟩ => show win1_3.index t (0 : Fin 1) * 128 + 1 * (j 1).val = win1_4.index t (1 : Fin 2) * 128 + 1 * (j 1).val; omega
  exact exit_congr (V c main_v46) (V c main_v33) (V c main_v32) (V c main_arg3) h0 h1 h2 h3

/-- An index of the output's array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v47).slice (win1_4.rect t)).set ↔ _
  rw [View.set_slice_whole, Rect.mem_set_unit]
  exact Iff.rfl

/-- The twenty blocks of 5000 rows tile the array: row r is in the block of point r / 5000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, -, -, -, e40, e41⟩ := idx_facts ⟨(i 0).val / 5000, hlt⟩
  have e40' : win1_4.index ⟨(i 0).val / 5000, hlt⟩ (0 : Fin 2) = (i 0).val / 5000 := e40
  refine ⟨⟨(i 0).val / 5000, hlt⟩, flush1_4 _, ?_⟩
  rw [mem_blk]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    omega

end FirstExit

/-- After the region has run from entry contents V, its output array is the layer's exit function of the entry
    contents of its four input arrays. -/
theorem region1 (c : Dev nD) :
    (dat1 V c).arrAt 4 cfg1.N = Cert.Spec.combine (V c main_v46) (V c main_v33) (V c main_v32) (V c main_arg3) :=
  (dat1 V c).arrAt_eq_of_cover 4 _ (fun t _ => FirstExit.flushed_eq V c t) FirstExit.cover

end Cert.KernelIdeal.RegionValue

end
-- ==== Proof.Region2.lean ====
import proofs.«130374_j21500606284503_1_alg».proof.Proof.Gen.KernelIdeal.Frame
import proofs.«130374_j21500606284503_1_alg».proof.Proof.Spec
import proofs.«130374_j21500606284503_1_alg».proof.Proof.LibSoftplus
import Idealize.ShloMosaic.Lib.Pipeline.Value

/-!
# The second matrix-product region as a whole-array function

The region walks the 100000 rows of its left operand in twenty blocks of 5000 rows. At each point the body multiplies
the point's row block `[5000,128]` (first cast to its own shape, which is the identity) by the whole weight `[128,128]`
into a zero accumulator and stores the `[5000,128]` result as the same row block of the output. Over the extended reals a change of format is the identity and the
accumulated product is the plain sum over the contracted coordinate, so

* `pay2_apply`: the body's payload at `(p, q)` is `∑ k, x0 (p, k) * x1 (k, q)`;
* `idx_facts2`: the left operand's and the output's row block at point `t` is block `t`; the weight's block is block 0;
* `iblk2_0_apply`, `iblk2_1_apply`: an input block's entry is the array's entry at block index × block size + the
  coordinate inside the block;
* `flushed2_eq`: what point `t` writes back is block `t` of the matrix product of the two arrays;
* `cover2`: row `r` lies in the block of point `r / 5000`;
* `region2`: after the twenty points the output array is `Cert.Spec.mm` of the two input arrays as the region finds them.
-/

noncomputable section

namespace Cert.KernelIdeal.RegionValue

open Idealize.ShloMosaic Idealize.ShloMosaic.TcCoe Idealize.SL.Sem Cert.KernelIdeal Cert.KernelIdeal.Gen
open Idealize.ShloMosaic.ValueIdx
open scoped BigOperators

variable (V : (c : Dev nD) → (b : Ref sig .tc) → Buf (Elt Ideal) ((c : Thread nD τ).loc b))

/-- The zero offsets of a whole-block access, as a constant function. -/
theorem zero_offsets2 : (![0, 0] : Fin 2 → Nat) = fun _ => 0 := funext fun a => by fin_cases a <;> rfl

/-- The product's dimension numbers are the plain ones: contract the left operand's columns with the right operand's rows. -/
theorem dot_is_plain2 : dot_S5000x128_S128x128_S5000x128_1_0_0_1_n_n = DotDims.plain 5000 128 128 := rfl

/-- The body's payload at an entry: the cast of the left block to its own shape is the identity, both operands keep
    their values through the change of format, and the product
    into a zero accumulator is the sum over the contracted coordinate. -/
theorem pay2_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  rw [shapeCast_self]
  exact Cert.Lib.Softplus.matmul0_plain_apply _ dot_is_plain2 none _ _ p q

/-- The printed index maps over the grid: the left operand's and the output's row block is the point's number, the
    weight's block is always the first, and no window moves along the columns. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- An index of the output array is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- One entry of a row block of the product, over variables: when the left block's row `p` is row `i 0` of `a0` and
    the right block's column `q` is column `i 1` of `a1`, the payload at `(p, q)` is the matrix product at `i`. -/
theorem pay2_block (a0 : S100000x128.Idx → EReal) (a1 : S128x128.Idx → EReal)
    (x0 : Vec Ideal S5000x128 .f32) (x1 : Vec Ideal S128x128 .f32) (p : Fin 5000) (q : Fin 128) (i : S100000x128.Idx)
    (h0 : ∀ k : Fin 128, x0 (ix2 p k) = a0 (ix2 (i 0) k))
    (h1 : ∀ k : Fin 128, x1 (ix2 k q) = a1 (ix2 k (i 1))) :
    k2_pay1 (F := Ideal) x0 x1 (ix2 p q) = Cert.Spec.mm a0 a1 i := by
  rw [pay2_apply]
  show _ = ∑ k : Fin 128, a0 (ix2 (i 0) k) * a1 (ix2 k (i 1))
  exact Finset.sum_congr rfl fun k _ => by rw [h0, h1]

/-- The left operand's block at point `t` is rows `5000 t … 5000 t + 4999` of its array. -/
theorem iblk2_0_apply (c : Dev nD) (t : Fin cfg2.N) (x : S5000x128.Idx) (k : S100000x128.Idx)
    (hk0 : (k 0).val = t.val * 5000 + (x 0).val) (hk1 : (k 1).val = (x 1).val) :
    (iblk2 V c 0 t : Vec Ideal S5000x128 .f32) x = (V c main_v47 : S100000x128.Idx → EReal) k := by
  obtain ⟨e0, e1, -, -, -, -⟩ := idx_facts2 t
  unfold iblk2
  rw [View.read_apply]
  show V c main_v47 _ = V c main_v47 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The weight's block at every point is the whole weight. -/
theorem iblk2_1_apply (c : Dev nD) (t : Fin cfg2.N) (x : S128x128.Idx) (k : S128x128.Idx)
    (hk0 : (k 0).val = (x 0).val) (hk1 : (k 1).val = (x 1).val) :
    (iblk2 V c 1 t : Vec Ideal S128x128 .f32) x = (V c main_arg4 : S128x128.Idx → EReal) k := by
  obtain ⟨-, -, e2, e3, -, -⟩ := idx_facts2 t
  unfold iblk2
  rw [View.read_apply]
  show V c main_arg4 _ = V c main_arg4 _
  congr 1
  funext a
  apply Fin.ext
  match a with
  | ⟨0, _⟩ => show win2_1.index t 0 * 128 + 1 * (x 0).val = (k 0).val; rw [e2, hk0]; omega
  | ⟨1, _⟩ => show win2_1.index t 1 * 128 + 1 * (x 1).val = (k 1).val; rw [e3, hk1]; omega

/-- What point `t` writes back is block `t` of the matrix product of the two arrays as the region finds them. -/
theorem flushed2_eq (c : Dev nD) (t : Fin cfg2.N) :
    (dat2 V c).flushed 2 t = ((cfg2.win 2).blk t).view.read (Elt Ideal) (Cert.Spec.mm (V c main_v47) (V c main_arg4)) := by
  show (cfg2.win 2).cut (grid2.coords t) ((dat2 V c).after 2 t) = _
  rw [after2_2]
  unfold out2_2
  rw [View.canon_unit_zero zero_offsets2]
  simp only [View.ld_unit_zero (S := S5000x128) zero_offsets2, View.ld_unit_zero (S := S128x128) zero_offsets2]
  obtain ⟨-, -, -, -, e4, e5⟩ := idx_facts2 t
  funext j
  obtain ⟨p, q, rfl⟩ : ∃ (p : Fin 5000) (q : Fin 128), j = ix2 p q := ⟨j 0, j 1, eq_ix2 j⟩
  refine pay2_block (V c main_v47) (V c main_arg4) _ _ p q (((cfg2.win 2).blk t).view.emb (ix2 p q)) (fun k => ?_) (fun k => ?_)
  · refine iblk2_0_apply V c t (ix2 p k) _ ?_ rfl
    show win2_2.index t 0 * 5000 + 1 * p.val = t.val * 5000 + p.val
    rw [e4]; omega
  · refine iblk2_1_apply V c t (ix2 k q) _ rfl ?_
    show win2_2.index t 1 * 128 + 1 * q.val = q.val
    rw [e5]; omega

/-- Every row of the output is in the block of the point numbered by its row block. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have ht : (i 0).val / 5000 < cfg2.N := by rw [hN]; omega
  refine ⟨⟨(i 0).val / 5000, ht⟩, flush2_2 _, ?_⟩
  rw [mem_blk2]
  obtain ⟨-, -, -, -, e4, e5⟩ := idx_facts2 ⟨(i 0).val / 5000, ht⟩
  intro a
  match a with
  | ⟨0, _⟩ =>
    show win2_2.index ⟨(i 0).val / 5000, ht⟩ 0 * 5000 ≤ (i 0).val ∧ (i 0).val < win2_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ 1 * 128 ≤ (i 1).val ∧ (i 1).val < win2_2.index ⟨(i 0).val / 5000, ht⟩ 1 * 128 + 128
    rw [e5]; omega

/-- The output array after the region's twenty points: the matrix product of the left operand and the weight as the
    region finds them, entry by entry. -/
theorem region2 (c : Dev nD) :
    (dat2 V c).arrAt 2 cfg2.N = Cert.Spec.mm (V c main_v47) (V c main_arg4) :=
  (dat2 V c).arrAt_eq_of_cover 2 (Cert.Spec.mm (V c main_v47) (V c main_arg4)) (fun t _ => flushed2_eq V c t) cover2

end Cert.KernelIdeal.RegionValue

end
-- ==== Proof.Region3.lean ====
/- The second layer's exit region as one function of its entry arrays

The region runs twenty grid points; point t stages rows 5000·t … 5000·t + 4999 of the aggregated messages, of the
feature table and of the self-loop column, and the whole bias, and stores into the same rows of the output
`leaky (a + h · d + b)` entry by entry. Two halves: the stored block at an entry (p, q), over variables; then the
twenty blocks put together — each is the restriction of `Cert.Spec.combine` of the entry arrays to its rows, and
the blocks tile the array.
-/
import proofs.«130374_j21500606284503_1_alg».proof.Proof.Gen.KernelIdeal.Frame
import proofs.«130374_j21500606284503_1_alg».proof.Proof.Spec
import Idealize.ShloMosaic.Lib.Pipeline.Value
import Idealize.ShloMosaic.Lib.ValueIdx

noncomputable section

namespace Cert.KernelIdeal.RegionValue

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

namespace SecondExit

/-! ## The stored block at an entry -/

/-- The column broadcast along the features: entry (p, q) of the [5000,128] array is the column's entry (p, 0). -/
theorem col_apply (x : FVec Ideal S5000x1 .f32) (p : Fin 5000) (q : Fin 128) :
    broadcastTo S5000x128 x broadcasts_S5000x1_S5000x128 (ix2 p q) = x (ix2 p 0) :=
  broadcastTo_apply x broadcasts_S5000x1_S5000x128 (ix2 p q) (ix2 p 0) fun a => by
    match a with
    | ⟨0, _⟩ => rfl
    | ⟨1, _⟩ => rfl

/-- The row cast to [1,128] and broadcast along the rows: entry (p, q) is the row's entry q. -/
theorem row_apply (x : FVec Ideal S128 .f32) (p : Fin 5000) (q : Fin 128) :
    broadcastTo S5000x128 (shapeCast S1x128 x shapeCasts_S128_S1x128) broadcasts_S1x128_S5000x128 (ix2 p q) = x (ix1 q) := by
  refine (broadcastTo_apply _ broadcasts_S1x128_S5000x128 (ix2 p q) (ix2 (0 : Fin 1) q) fun a => ?_).trans ?_
  · match a with
    | ⟨0, _⟩ => rfl
    | ⟨1, _⟩ => rfl
  · refine shapeCast_apply x shapeCasts_S128_S1x128 (ix2 (0 : Fin 1) q) (ix1 q) ?_
    rw [Shape.rowMajor_val_one, Shape.rowMajor_val_two]
    show q.val = (0 : Fin 1).val * 128 + q.val
    simp

/-- The body's payload at entry (p, q): the rectifier of the sum of the first block's entry, the second block's entry
    times the column's entry of row p, and the row's entry of feature q. -/
theorem pay_apply (x0 x1 : Vec Ideal S5000x128 .f32) (x2 : Vec Ideal S5000x1 .f32) (x3 : Vec Ideal S128 .f32)
    (p : Fin 5000) (q : Fin 128) :
    k3_pay1 (F := Ideal) x0 x1 x2 x3 (ix2 p q)
      = Cert.Spec.leaky (x0 (ix2 p q) + x1 (ix2 p q) * x2 (ix2 p 0) + x3 (ix1 q)) := by
  unfold k3_pay1
  simp only [shapeCast_self]
  rw [select_apply, cmpf_apply, mulf_apply, addf_apply, addf_apply, mulf_apply, broadcast_apply, broadcast_apply]
  rw [col_apply, row_apply]
  rfl

/-- The same at any index of the block, its coordinates read off the index. -/
theorem pay_at (x0 x1 : Vec Ideal S5000x128 .f32) (x2 : Vec Ideal S5000x1 .f32) (x3 : Vec Ideal S128 .f32)
    (j : S5000x128.Idx) :
    k3_pay1 (F := Ideal) x0 x1 x2 x3 j
      = Cert.Spec.leaky (x0 j + x1 j * x2 (ix2 (j 0) 0) + x3 (ix1 (j 1))) := by
  obtain ⟨p, q, rfl⟩ : ∃ (p : Fin 5000) (q : Fin 128), j = ix2 p q := ⟨j 0, j 1, eq_ix2 j⟩
  exact pay_apply x0 x1 x2 x3 p q

/-- The layer's exit at one entry with each array read at its own index: when the four indices are the output
    index, the output index, its row in the column and its feature in the bias, this is the exit function there. -/
theorem exit_congr (a h : Cert.Spec.SNx128.Idx → EReal) (d : Cert.Spec.SNx1.Idx → EReal) (b : Cert.Spec.S128.Idx → EReal)
    {i0 i1 i : Cert.Spec.SNx128.Idx} {i2 : Cert.Spec.SNx1.Idx} {i3 : Cert.Spec.S128.Idx}
    (h0 : i0 = i) (h1 : i1 = i) (h2 : i2 = ix2 (i 0) 0) (h3 : i3 = ix1 (i 1)) :
    Cert.Spec.leaky (a i0 + h i1 * d i2 + b i3) = Cert.Spec.combine a h d b i := by
  subst h0 h1 h2 h3; rfl

/-! ## The twenty blocks put together -/

theorem off2 : (![0, 0] : Fin 2 → Nat) = fun _ => 0 := funext fun a => by fin_cases a <;> rfl
theorem off1 : (![0] : Fin 1 → Nat) = fun _ => 0 := funext fun a => by fin_cases a <;> rfl

/-- The printed index maps, decided over the grid: at point t the four row-blocked windows sit at block (t, 0), the
    bias window at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- What point t writes back to the output's array is block t of the layer's exit function of the region's entry
    arrays: the messages and the feature table read at the same rows, the column at those rows, the bias whole. -/
theorem flushed_eq (c : Dev nD) (t : Fin cfg3.N) :
    (dat3 V c).flushed 4 t = ((cfg3.win 4).blk t).view.read (Elt Ideal)
      (Cert.Spec.combine (V c main_v61) (V c main_v48) (V c main_v32) (V c main_arg5)) := by
  show (cfg3.win 4).cut (grid3.coords t) ((dat3 V c).after 4 t) = _
  rw [after3_4]
  unfold out3_4
  rw [View.canon_unit_zero off2]
  simp only [View.ld_unit_zero (S := S5000x128) off2, View.ld_unit_zero (S := S5000x1) off2, View.ld_unit_zero (S := S128) off1]
  obtain ⟨e00, e01, e10, e11, e20, e21, e30, e40, e41⟩ := idx_facts t
  refine funext fun (j : S5000x128.Idx) => ?_
  refine (pay_at (iblk3 V c 0 t) (iblk3 V c 1 t) (iblk3 V c 2 t) (iblk3 V c 3 t) j).trans ?_
  have hj0 : (j 0).val < 5000 := (j 0).isLt
  have hj1 : (j 1).val < 128 := (j 1).isLt
  have h0 : (((cfg3.win 0).blk t).view.emb j : S100000x128.Idx) = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  have h1 : (((cfg3.win 1).blk t).view.emb j : S100000x128.Idx) = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  have h2 : (((cfg3.win 2).blk t).view.emb (ix2 (j 0) 0 : S5000x1.Idx) : S100000x1.Idx)
      = (ix2 ((((cfg3.win 4).blk t).view.emb j : S100000x128.Idx) 0) 0 : S100000x1.Idx) := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have h3 : (((cfg3.win 3).blk t).view.emb (ix1 (j 1) : S128.Idx) : S128.Idx)
      = (ix1 ((((cfg3.win 4).blk t).view.emb j : S100000x128.Idx) 1) : S128.Idx) := by
    funext a; apply Fin.ext
    match a with
    | ⟨0, _⟩ => show win3_3.index t (0 : Fin 1) * 128 + 1 * (j 1).val = win3_4.index t (1 : Fin 2) * 128 + 1 * (j 1).val; omega
  exact exit_congr (V c main_v61) (V c main_v48) (V c main_v32) (V c main_arg5) h0 h1 h2 h3

/-- An index of the output's array is in point t's block iff each coordinate is in the block's range on its axis. -/
theorem mem_blk (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v62).slice (win3_4.rect t)).set ↔ _
  rw [View.set_slice_whole, Rect.mem_set_unit]
  exact Iff.rfl

/-- The twenty blocks of 5000 rows tile the array: row r is in the block of point r / 5000. -/
theorem cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  have hlt : (i 0).val / 5000 < cfg3.N := by rw [hN]; omega
  obtain ⟨-, -, -, -, -, -, -, e40, e41⟩ := idx_facts ⟨(i 0).val / 5000, hlt⟩
  have e40' : win3_4.index ⟨(i 0).val / 5000, hlt⟩ (0 : Fin 2) = (i 0).val / 5000 := e40
  refine ⟨⟨(i 0).val / 5000, hlt⟩, flush3_4 _, ?_⟩
  rw [mem_blk]
  intro a
  match a with
  | ⟨0, _⟩ =>
    show win3_4.index ⟨(i 0).val / 5000, hlt⟩ (0 : Fin 2) * 5000 ≤ (i 0).val
      ∧ (i 0).val < win3_4.index ⟨(i 0).val / 5000, hlt⟩ (0 : Fin 2) * 5000 + 5000
    omega
  | ⟨1, _⟩ =>
    show win3_4.index ⟨(i 0).val / 5000, hlt⟩ (1 : Fin 2) * 128 ≤ (i 1).val
      ∧ (i 1).val < win3_4.index ⟨(i 0).val / 5000, hlt⟩ (1 : Fin 2) * 128 + 128
    omega

end SecondExit

/-- After the region has run from entry contents V, its output array is the layer's exit function of the entry
    contents of its four input arrays. -/
theorem region3 (c : Dev nD) :
    (dat3 V c).arrAt 4 cfg3.N = Cert.Spec.combine (V c main_v61) (V c main_v48) (V c main_v32) (V c main_arg5) :=
  (dat3 V c).arrAt_eq_of_cover 4 _ (fun t _ => SecondExit.flushed_eq V c t) SecondExit.cover

end Cert.KernelIdeal.RegionValue

end
-- ==== Proof.Region4.lean ====
/-
  The value of the fifth kernel region (the decoding head) as a whole-array function, over the extended reals.

  The region runs over 20 points along the rows. At point `t` its body reads rows `5000 t … 5000 t + 4999` of the
  `[100000, 128]` table and the whole of two weights (`[128, 64]`, `[64, 1]`) and two biases (`[64]`, `[1]`), and stores one
  `[5000, 1]` block: the table's rows times the first weight plus the first bias laid along the rows, through the leaky
  rectifier entry by entry, times the second weight plus the second bias. Over the extended reals the narrowing
  conversions are the identity and a matrix product into a zero accumulator is the plain sum over the contracted
  coordinate, so the block's entry `(p, 0)` is
  `(∑ k, leaky ((∑ j, x (p, j) * W₁ (j, k)) + b₁ k) * W₂ (k, 0)) + b₂ 0`,
  which depends on row `p` of the block only (`pay_apply`). Row `p` of point `t`'s block is row `5000 t + p` of the table
  (`read_table`); the weights' and biases' blocks are the whole arrays (`read_w1` … `read_b2`). So what point `t` writes back
  is block `t` of `Cert.Spec.decode` of the region-entry arrays (`flushed_eq`); row `r` of the result lies in the block of
  point `r / 5000` (`cover`), so the blocks cover the result array, which therefore ends holding that function (`region4`).
-/
import proofs.«130374_j21500606284503_1_alg».proof.Proof.Gen.KernelIdeal.Frame
import proofs.«130374_j21500606284503_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

noncomputable section

open scoped BigOperators

namespace Cert.KernelIdeal.RegionValue

open Idealize.ShloMosaic Idealize.ShloMosaic.TcCoe Idealize.SL.Sem Cert.KernelIdeal Cert.KernelIdeal.Gen
open Idealize.ShloMosaic.ValueIdx Idealize.ShloMosaic.StackMember

variable (V : (c : Dev nD) → (b : Ref sig .tc) → Buf (Elt Ideal) ((c : Thread nD τ).loc b))

namespace Decode

/-! ## The body's payload at an index -/

/-- A plain matrix product of an `[R, K]` by a `[K, C]` array accumulated into a zero splat, read at `(p, j)`: the sum over
    the contracted coordinate of the products of the entries, whatever the operands' formats. -/
theorem matmul0_apply {R K C : Nat} {φ₁ φ₂ : FTy} (D : DotDims ⟨2, ![R, K]⟩ ⟨2, ![K, C]⟩ ⟨2, ![R, C]⟩)
    (hD : D = DotDims.plain R K C) (prec : Option ContractPrecision)
    (a : FVec Ideal ⟨2, ![R, K]⟩ φ₁) (w : FVec Ideal ⟨2, ![K, C]⟩ φ₂) (p : Fin R) (j : Fin C) :
    matmul D prec a w (constant ⟨2, ![R, C]⟩ .f32 0x00000000#32) (ix2 p j) = ∑ k : Fin K, a (ix2 p k) * w (ix2 k j) := by
  subst hD
  exact (congrFun (matmul_zero_eq_dotGeneral _ prec a w) _).trans (dotGeneral_plain_apply prec a w p j)

/-- A `[b]` array cast to `[1, b]` reads, at `(0, j)`, the operand at `j`. -/
theorem shapeCast_b_1b_apply {α : Type} {b : ℕ} (x : (⟨1, ![b]⟩ : Shape).Idx → α)
    (h : (⟨1, ![b]⟩ : Shape).ShapeCasts ⟨2, ![1, b]⟩) (z : Fin 1) (j : Fin b) :
    shapeCast ⟨2, ![1, b]⟩ x h (ix2 z j) = x (ix1 j) :=
  shapeCast_apply x h _ _ (by
    rw [Shape.rowMajor_val_one, Shape.rowMajor_val_two]
    show j.val = z.val * b + j.val
    have := z.isLt
    have hz : z.val = 0 := by omega
    rw [hz, Nat.zero_mul, Nat.zero_add])

/-- The body's payload at `(p, q)`: the two dense layers with the rectifier between them, from row `p` of the table's block. -/
theorem pay_apply (x0 : Vec Ideal S5000x128 .f32) (x1 : Vec Ideal S128x64 .f32) (x2 : Vec Ideal S64 .f32)
    (x3 : Vec Ideal S64x1 .f32) (x4 : Vec Ideal S1 .f32) (p : Fin 5000) (q : Fin 1) :
    k4_pay1 (F := Ideal) x0 x1 x2 x3 x4 (ix2 p q)
      = (∑ k : Fin 64, Cert.Spec.leaky ((∑ j : Fin 128, x0 (ix2 p j) * x1 (ix2 j k)) + x2 (ix1 k)) * x3 (ix2 k q)) + x4 (ix1 q) := by
  unfold k4_pay1
  rw [addf_apply, matmul0_apply dot_S5000x64_S64x1_S5000x1_1_0_0_1_n_n rfl, broadcastTo_1b_ab_apply, shapeCast_b_1b_apply]
  refine congrArg (· + x4 (ix1 q)) (Finset.sum_congr rfl fun k _ => ?_)
  rw [truncf_apply, truncf_apply, select_apply, cmpf_apply, mulf_apply, broadcast_apply, broadcast_apply, addf_apply,
    matmul0_apply dot_S5000x128_S128x64_S5000x64_1_0_0_1_n_n rfl, broadcastTo_1b_ab_apply, shapeCast_b_1b_apply]
  rw [shapeCast_self]
  rfl

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the table's and the result's block index along the rows is the
    point's number, every other block index is zero. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- The table's block at point `t` is rows `5000 t … 5000 t + 4999` of the table. -/
theorem read_table (c : Dev nD) (t : Fin cfg4.N) (y : S5000x128.Idx) (i : S100000x128.Idx)
    (h0 : (i 0).val = t.val * 5000 + (y 0).val) (h1 : (i 1).val = (y 1).val) :
    (iblk4 V c 0 t : Vec Ideal S5000x128 .f32) y = (V c main_v62 : S100000x128.Idx → EReal) i := by
  obtain ⟨e0, e1, -⟩ := idx_facts t
  unfold iblk4
  rw [View.read_apply]
  show V c main_v62 _ = V c main_v62 _
  congr 1
  funext a; apply Fin.ext
  match a with
  | ⟨0, _⟩ => show win4_0.index t (0 : Fin 2) * 5000 + 1 * (y 0).val = (i 0).val; rw [e0, h0]; omega
  | ⟨1, _⟩ => show win4_0.index t (1 : Fin 2) * 128 + 1 * (y 1).val = (i 1).val; rw [e1, h1]; omega

/-- The first weight's block is the whole weight at every point. -/
theorem read_w1 (c : Dev nD) (t : Fin cfg4.N) :
    (iblk4 V c 1 t : Vec Ideal S128x64 .f32) = (V c main_arg6 : S128x64.Idx → EReal) := by
  obtain ⟨-, -, e0, e1, -⟩ := idx_facts t
  funext y
  unfold iblk4
  rw [View.read_apply]
  show V c main_arg6 _ = V c main_arg6 _
  congr 1
  funext a; apply Fin.ext
  match a with
  | ⟨0, _⟩ => show win4_1.index t (0 : Fin 2) * 128 + 1 * (y 0).val = (y 0).val; rw [e0]; omega
  | ⟨1, _⟩ => show win4_1.index t (1 : Fin 2) * 64 + 1 * (y 1).val = (y 1).val; rw [e1]; omega

/-- The first bias's block is the whole bias at every point. -/
theorem read_b1 (c : Dev nD) (t : Fin cfg4.N) :
    (iblk4 V c 2 t : Vec Ideal S64 .f32) = (V c main_arg7 : S64.Idx → EReal) := by
  obtain ⟨-, -, -, -, e0, -⟩ := idx_facts t
  funext y
  unfold iblk4
  rw [View.read_apply]
  show V c main_arg7 _ = V c main_arg7 _
  congr 1
  funext a; apply Fin.ext
  match a with
  | ⟨0, _⟩ => show win4_2.index t (0 : Fin 1) * 64 + 1 * (y 0).val = (y 0).val; rw [e0]; omega

/-- The second weight's block is the whole weight at every point. -/
theorem read_w2 (c : Dev nD) (t : Fin cfg4.N) :
    (iblk4 V c 3 t : Vec Ideal S64x1 .f32) = (V c main_arg8 : S64x1.Idx → EReal) := by
  obtain ⟨-, -, -, -, -, e0, e1, -⟩ := idx_facts t
  funext y
  unfold iblk4
  rw [View.read_apply]
  show V c main_arg8 _ = V c main_arg8 _
  congr 1
  funext a; apply Fin.ext
  match a with
  | ⟨0, _⟩ => show win4_3.index t (0 : Fin 2) * 64 + 1 * (y 0).val = (y 0).val; rw [e0]; omega
  | ⟨1, _⟩ => show win4_3.index t (1 : Fin 2) * 1 + 1 * (y 1).val = (y 1).val; rw [e1]; omega

/-- The second bias's block is the whole bias at every point. -/
theorem read_b2 (c : Dev nD) (t : Fin cfg4.N) :
    (iblk4 V c 4 t : Vec Ideal S1 .f32) = (V c main_arg9 : S1.Idx → EReal) := by
  obtain ⟨-, -, -, -, -, -, -, e0, -⟩ := idx_facts t
  funext y
  unfold iblk4
  rw [View.read_apply]
  show V c main_arg9 _ = V c main_arg9 _
  congr 1
  funext a; apply Fin.ext
  match a with
  | ⟨0, _⟩ => show win4_4.index t (0 : Fin 1) * 1 + 1 * (y 0).val = (y 0).val; rw [e0]; omega

/-- One entry of the body's result from one row of a table: where the block's row `y 0` is the table's row `i 0`, the
    payload at `y` is the head of the network at `i`. -/
theorem point_value (A0 : S100000x128.Idx → EReal) (x0 : Vec Ideal S5000x128 .f32) (x1 : Vec Ideal S128x64 .f32)
    (x2 : Vec Ideal S64 .f32) (x3 : Vec Ideal S64x1 .f32) (x4 : Vec Ideal S1 .f32) (y : S5000x1.Idx) (i : S100000x1.Idx)
    (hrow : ∀ k : Fin 128, x0 (ix2 (y 0) k) = A0 (ix2 (i 0) k)) :
    k4_pay1 (F := Ideal) x0 x1 x2 x3 x4 y = Cert.Spec.decode A0 x1 x2 x3 x4 i := by
  obtain ⟨p, q, rfl⟩ : ∃ (p : Fin 5000) (q : Fin 1), y = ix2 p q := ⟨y 0, y 1, eq_ix2 y⟩
  obtain ⟨r, s, rfl⟩ : ∃ (r : Fin 100000) (s : Fin 1), i = ix2 r s := ⟨i 0, i 1, eq_ix2 i⟩
  obtain rfl : s = q := Subsingleton.elim _ _
  have hrow' : ∀ k : Fin 128, x0 (ix2 p k) = A0 (ix2 r k) := hrow
  rw [pay_apply]
  show (∑ k : Fin 64, Cert.Spec.leaky ((∑ j : Fin 128, x0 (ix2 p j) * x1 (ix2 j k)) + x2 (ix1 k)) * x3 (ix2 k s)) + x4 (ix1 s)
    = (∑ k : Fin 64, Cert.Spec.leaky ((∑ j : Fin 128, A0 (ix2 r j) * x1 (ix2 j k)) + x2 (ix1 k)) * x3 (ix2 k s)) + x4 (ix1 s)
  simp only [hrow']

/-- What point `t` writes back is block `t` of the head of the network of the region-entry arrays. -/
theorem flushed_eq (c : Dev nD) (t : Fin cfg4.N) :
    (dat4 V c).flushed 5 t = ((cfg4.win 5).blk t).view.read (Elt Ideal)
      (Cert.Spec.decode (V c main_v62) (V c main_arg6) (V c main_arg7) (V c main_arg8) (V c main_arg9)) := by
  show (cfg4.win 5).cut (grid4.coords t) ((dat4 V c).after 5 t) = _
  rw [after4_5]
  unfold out4_5
  rw [View.canon_unit_zero hz2]
  simp only [View.ld_unit_zero (S := S5000x128) hz2, View.ld_unit_zero (S := S128x64) hz2, View.ld_unit_zero (S := S64) hz1,
    View.ld_unit_zero (S := S64x1) hz2, View.ld_unit_zero (S := S1) hz1]
  rw [read_w1, read_b1, read_w2, read_b2]
  obtain ⟨-, -, -, -, -, -, -, -, e0, e1⟩ := idx_facts t
  funext j
  show k4_pay1 (F := Ideal) (iblk4 V c 0 t) (V c main_arg6) (V c main_arg7) (V c main_arg8) (V c main_arg9) j
    = Cert.Spec.decode (V c main_v62) (V c main_arg6) (V c main_arg7) (V c main_arg8) (V c main_arg9) (((cfg4.win 5).blk t).view.emb j)
  refine point_value (V c main_v62) (iblk4 V c 0 t) _ _ _ _ j _ fun k => ?_
  refine read_table V c t _ _ ?_ rfl
  show win4_5.index t (0 : Fin 2) * 5000 + 1 * (j 0).val = t.val * 5000 + (j 0).val
  rw [e0]; omega

/-- An index of the result is in point `t`'s block iff each coordinate is in the block's range on its axis. -/
theorem mem_blk (t : Fin cfg4.N) (i : S100000x1.Idx) :
    i ∈ ((cfg4.win 5).blk t).view.set ↔ ∀ a : Fin 2, win4_5.index t a * S5000x1.size a ≤ (i a).val ∧ (i a).val < win4_5.index t a * S5000x1.size a + S5000x1.size a := by
  show i ∈ ((View.whole main_v63).slice (win4_5.rect t)).set ↔ _
  rw [View.set_slice_whole, Rect.mem_set_unit]
  exact Iff.rfl

/-- Row `r` of the result is in the block of point `r / 5000`. -/
theorem cover (i : S100000x1.Idx) : ∃ t : Fin cfg4.N, (cfg4.win 5).flush t = true ∧ i ∈ ((cfg4.win 5).blk t).view.set := by
  have hi0 : (i 0).val < 100000 := (i 0).isLt
  have hi1 : (i 1).val < 1 := (i 1).isLt
  have hN : cfg4.N = 20 := N_4
  obtain ⟨t, ht⟩ : ∃ t : Fin cfg4.N, t.val = (i 0).val / 5000 := ⟨⟨(i 0).val / 5000, by rw [hN]; omega⟩, rfl⟩
  refine ⟨t, flush4_5 t, ?_⟩
  rw [mem_blk]
  obtain ⟨-, -, -, -, -, -, -, -, e0, e1⟩ := idx_facts t
  intro a
  match a with
  | ⟨0, _⟩ => show win4_5.index t (0 : Fin 2) * 5000 ≤ (i 0).val ∧ (i 0).val < win4_5.index t (0 : Fin 2) * 5000 + 5000; rw [e0, ht]; omega
  | ⟨1, _⟩ => show win4_5.index t (1 : Fin 2) * 1 ≤ (i 1).val ∧ (i 1).val < win4_5.index t (1 : Fin 2) * 1 + 1; rw [e1]; omega

end Decode

/-- The result array after the region: the head of the network of the region-entry arrays. -/
theorem region4 (c : Dev nD) :
    (dat4 V c).arrAt 5 cfg4.N = Cert.Spec.decode (V c main_v62) (V c main_arg6) (V c main_arg7) (V c main_arg8) (V c main_arg9) :=
  (dat4 V c).arrAt_eq_of_cover 5 _ (fun t _ => Decode.flushed_eq V c t) Decode.cover

end Cert.KernelIdeal.RegionValue

end
-- ==== Proof.KValue.lean ====
import proofs.«130374_j21500606284503_1_alg».proof.Proof.Gen.KernelIdeal.Frame
import proofs.«130374_j21500606284503_1_alg».proof.Proof.Spec
import proofs.«130374_j21500606284503_1_alg».proof.Proof.KGlue
import proofs.«130374_j21500606284503_1_alg».proof.Proof.Region0
import proofs.«130374_j21500606284503_1_alg».proof.Proof.Region1
import proofs.«130374_j21500606284503_1_alg».proof.Proof.Region2
import proofs.«130374_j21500606284503_1_alg».proof.Proof.Region3
import proofs.«130374_j21500606284503_1_alg».proof.Proof.Region4
import Idealize.ShloMosaic.Lib.StableHlo.Run
import Idealize.ShloMosaic.PureOps.Ideal

/-!
# The kernel program's result buffer at the end of its run

The contents at the program's boundaries are a fold from the launch memory (`W1` … `W8`). Read from the end:
the result is the head region's array, the head's function (`Spec.decode`) of the second layer's exit and the head's
weights; a layer's exit is the combine region's array, `Spec.combine` of the aggregated messages, the feature
table, the self-loop column and the bias; the feature table is the matmul region's array, `Spec.mm` of the
layer's input and weight; and the aggregated messages and the self-loop column are the stretches of array
operations in between (`KGlue.agg`, `KGlue.dsq`), which read the edge list, the feature table, and values that
earlier stretches left and no later segment overwrote. Every buffer a segment reads is followed back to where
it was written; an argument array is never written, so it is followed (forward or back, whichever is
shorter) to the launch memory.
-/

set_option maxRecDepth 16384

noncomputable section

namespace Cert.KernelIdeal.KValue

open Cert.KernelIdeal Cert.KernelIdeal.Gen Cert.KernelIdeal.RegionValue
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The first stretch: the edge list's rows, the edge weights and the self-loop column -/

set_option maxHeartbeats 8000000 in
theorem ops0_row (W : Valuation τ sig (Elt Ideal)) :
    StableHlo.after (hostOps0 (F := Ideal)) W (Proc.devRef .tc main_v1) = KGlue.row (W (Proc.devRef .tc main_arg1)) := by
  after_results_simp
  rfl
set_option maxHeartbeats 8000000 in
theorem ops0_col (W : Valuation τ sig (Elt Ideal)) :
    StableHlo.after (hostOps0 (F := Ideal)) W (Proc.devRef .tc main_v3) = KGlue.col (W (Proc.devRef .tc main_arg1)) := by
  after_results_simp
  rfl
set_option maxHeartbeats 8000000 in
theorem ops0_norm (W : Valuation τ sig (Elt Ideal)) :
    StableHlo.after (hostOps0 (F := Ideal)) W (Proc.devRef .tc main_v30) = KGlue.norm (W (Proc.devRef .tc main_arg1)) := by
  after_results_simp
  rfl
set_option maxHeartbeats 8000000 in
theorem ops0_dsq (W : Valuation τ sig (Elt Ideal)) :
    StableHlo.after (hostOps0 (F := Ideal)) W (Proc.devRef .tc main_v32) = KGlue.dsq (W (Proc.devRef .tc main_arg1)) := by
  after_results_simp
  rfl

theorem W1_row (c : Dev nD) : W1 m ρ c (Proc.devRef .tc main_v1) = KGlue.row (m ((c : Thread nD τ).loc main_arg1)) := ops0_row (W0 m ρ c)
theorem W1_col (c : Dev nD) : W1 m ρ c (Proc.devRef .tc main_v3) = KGlue.col (m ((c : Thread nD τ).loc main_arg1)) := ops0_col (W0 m ρ c)
theorem W1_norm (c : Dev nD) : W1 m ρ c (Proc.devRef .tc main_v30) = KGlue.norm (m ((c : Thread nD τ).loc main_arg1)) := ops0_norm (W0 m ρ c)
theorem W1_dsq (c : Dev nD) : W1 m ρ c (Proc.devRef .tc main_v32) = KGlue.dsq (m ((c : Thread nD τ).loc main_arg1)) := ops0_dsq (W0 m ρ c)

theorem W1_arg0 (c : Dev nD) : W1 m ρ c (Proc.devRef .tc main_arg0) = m ((c : Thread nD τ).loc main_arg0) :=
  (StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
theorem W1_arg2 (c : Dev nD) : W1 m ρ c (Proc.devRef .tc main_arg2) = m ((c : Thread nD τ).loc main_arg2) :=
  (StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
theorem W1_arg3 (c : Dev nD) : W1 m ρ c (Proc.devRef .tc main_arg3) = m ((c : Thread nD τ).loc main_arg3) :=
  (StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
theorem W1_arg4 (c : Dev nD) : W1 m ρ c (Proc.devRef .tc main_arg4) = m ((c : Thread nD τ).loc main_arg4) :=
  (StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

/-! ## The values the run passes through, as functions of the launch memory -/

/-- the first layer's feature table -/
def feat1 (c : Dev nD) : Cert.Spec.SNx128.Idx → EReal := Cert.Spec.mm (m ((c : Thread nD τ).loc main_arg0)) (m ((c : Thread nD τ).loc main_arg2))
/-- the first layer's exit -/
def exit1 (c : Dev nD) : Cert.Spec.SNx128.Idx → EReal :=
  Cert.Spec.combine (KGlue.agg (feat1 m c) (m ((c : Thread nD τ).loc main_arg1))) (feat1 m c) (KGlue.dsq (m ((c : Thread nD τ).loc main_arg1))) (m ((c : Thread nD τ).loc main_arg3))
/-- the second layer's feature table -/
def feat2 (c : Dev nD) : Cert.Spec.SNx128.Idx → EReal := Cert.Spec.mm (exit1 m c) (m ((c : Thread nD τ).loc main_arg4))
/-- the second layer's exit -/
def exit2 (c : Dev nD) : Cert.Spec.SNx128.Idx → EReal :=
  Cert.Spec.combine (KGlue.agg (feat2 m c) (m ((c : Thread nD τ).loc main_arg1))) (feat2 m c) (KGlue.dsq (m ((c : Thread nD τ).loc main_arg1))) (m ((c : Thread nD τ).loc main_arg5))

/-! ## The first matmul region -/

theorem W2_feat (c : Dev nD) : W2 m ρ c (Proc.devRef .tc main_v33) = feat1 m c := by
  refine (W2_arr m ρ c 2).trans ((region0 (V1 m ρ) c).trans ?_)
  rw [show V1 m ρ c main_arg0 = m ((c : Thread nD τ).loc main_arg0) from W1_arg0 m ρ c,
    show V1 m ρ c main_arg2 = m ((c : Thread nD τ).loc main_arg2) from W1_arg2 m ρ c]
  rfl
theorem W2_row (c : Dev nD) : W2 m ρ c (Proc.devRef .tc main_v1) = KGlue.row (m ((c : Thread nD τ).loc main_arg1)) := (W2_of_ne m ρ c main_v1 (by decide)).trans (W1_row m ρ c)
theorem W2_col (c : Dev nD) : W2 m ρ c (Proc.devRef .tc main_v3) = KGlue.col (m ((c : Thread nD τ).loc main_arg1)) := (W2_of_ne m ρ c main_v3 (by decide)).trans (W1_col m ρ c)
theorem W2_norm (c : Dev nD) : W2 m ρ c (Proc.devRef .tc main_v30) = KGlue.norm (m ((c : Thread nD τ).loc main_arg1)) := (W2_of_ne m ρ c main_v30 (by decide)).trans (W1_norm m ρ c)
theorem W2_dsq (c : Dev nD) : W2 m ρ c (Proc.devRef .tc main_v32) = KGlue.dsq (m ((c : Thread nD τ).loc main_arg1)) := (W2_of_ne m ρ c main_v32 (by decide)).trans (W1_dsq m ρ c)
theorem W2_arg3 (c : Dev nD) : W2 m ρ c (Proc.devRef .tc main_arg3) = m ((c : Thread nD τ).loc main_arg3) := (W2_of_ne m ρ c main_arg3 (by decide)).trans (W1_arg3 m ρ c)
theorem W2_arg4 (c : Dev nD) : W2 m ρ c (Proc.devRef .tc main_arg4) = m ((c : Thread nD τ).loc main_arg4) := (W2_of_ne m ρ c main_arg4 (by decide)).trans (W1_arg4 m ρ c)

/-! ## The second stretch: the first layer's aggregated messages -/

set_option maxHeartbeats 8000000 in
theorem ops1_agg (W : Valuation τ sig (Elt Ideal)) (ei : IVec S2x1600000 32)
    (h1 : W (Proc.devRef .tc main_v1) = KGlue.row ei) (h3 : W (Proc.devRef .tc main_v3) = KGlue.col ei) (h30 : W (Proc.devRef .tc main_v30) = KGlue.norm ei) :
    StableHlo.after (hostOps1 (F := Ideal)) W (Proc.devRef .tc main_v46) = KGlue.agg (W (Proc.devRef .tc main_v33)) ei := by
  after_results_simp
  rw [h1, h3, h30]
  rfl

theorem W3_agg (c : Dev nD) : W3 m ρ c (Proc.devRef .tc main_v46) = KGlue.agg (feat1 m c) (m ((c : Thread nD τ).loc main_arg1)) := by
  have h := ops1_agg (W2 m ρ c) (m ((c : Thread nD τ).loc main_arg1)) (W2_row m ρ c) (W2_col m ρ c) (W2_norm m ρ c)
  rw [W2_feat m ρ c] at h
  exact h
theorem W3_feat (c : Dev nD) : W3 m ρ c (Proc.devRef .tc main_v33) = feat1 m c :=
  Eq.trans (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))) (W2_feat m ρ c)
theorem W3_dsq (c : Dev nD) : W3 m ρ c (Proc.devRef .tc main_v32) = KGlue.dsq (m ((c : Thread nD τ).loc main_arg1)) :=
  Eq.trans (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))) (W2_dsq m ρ c)
theorem W3_arg3 (c : Dev nD) : W3 m ρ c (Proc.devRef .tc main_arg3) = m ((c : Thread nD τ).loc main_arg3) :=
  Eq.trans (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))) (W2_arg3 m ρ c)
theorem W3_arg4 (c : Dev nD) : W3 m ρ c (Proc.devRef .tc main_arg4) = m ((c : Thread nD τ).loc main_arg4) :=
  Eq.trans (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))) (W2_arg4 m ρ c)
theorem W3_row (c : Dev nD) : W3 m ρ c (Proc.devRef .tc main_v1) = KGlue.row (m ((c : Thread nD τ).loc main_arg1)) :=
  Eq.trans (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))) (W2_row m ρ c)
theorem W3_col (c : Dev nD) : W3 m ρ c (Proc.devRef .tc main_v3) = KGlue.col (m ((c : Thread nD τ).loc main_arg1)) :=
  Eq.trans (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))) (W2_col m ρ c)
theorem W3_norm (c : Dev nD) : W3 m ρ c (Proc.devRef .tc main_v30) = KGlue.norm (m ((c : Thread nD τ).loc main_arg1)) :=
  Eq.trans (StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))) (W2_norm m ρ c)

/-! ## The first combine region, then the second matmul region -/

theorem W4_exit (c : Dev nD) : W4 m ρ c (Proc.devRef .tc main_v47) = exit1 m c := by
  refine (W4_arr m ρ c 4).trans ((region1 (V3 m ρ) c).trans ?_)
  rw [show V3 m ρ c main_v46 = _ from W3_agg m ρ c, show V3 m ρ c main_v33 = _ from W3_feat m ρ c,
    show V3 m ρ c main_v32 = _ from W3_dsq m ρ c, show V3 m ρ c main_arg3 = _ from W3_arg3 m ρ c]
  rfl
theorem W4_arg4 (c : Dev nD) : W4 m ρ c (Proc.devRef .tc main_arg4) = m ((c : Thread nD τ).loc main_arg4) := (W4_of_ne m ρ c main_arg4 (by decide)).trans (W3_arg4 m ρ c)
theorem W4_row (c : Dev nD) : W4 m ρ c (Proc.devRef .tc main_v1) = KGlue.row (m ((c : Thread nD τ).loc main_arg1)) := (W4_of_ne m ρ c main_v1 (by decide)).trans (W3_row m ρ c)
theorem W4_col (c : Dev nD) : W4 m ρ c (Proc.devRef .tc main_v3) = KGlue.col (m ((c : Thread nD τ).loc main_arg1)) := (W4_of_ne m ρ c main_v3 (by decide)).trans (W3_col m ρ c)
theorem W4_norm (c : Dev nD) : W4 m ρ c (Proc.devRef .tc main_v30) = KGlue.norm (m ((c : Thread nD τ).loc main_arg1)) := (W4_of_ne m ρ c main_v30 (by decide)).trans (W3_norm m ρ c)
/-- the self-loop column is an input of the combine region: the region leaves it as entered -/
theorem W4_dsq (c : Dev nD) : W4 m ρ c (Proc.devRef .tc main_v32) = KGlue.dsq (m ((c : Thread nD τ).loc main_arg1)) :=
  ((W4_arr m ρ c 2).trans (((dat1 (V3 m ρ) c).arrAt_in 2 rfl _).trans (A_eq1 (V3 m ρ) c 2))).trans (W3_dsq m ρ c)

theorem W5_feat (c : Dev nD) : W5 m ρ c (Proc.devRef .tc main_v48) = feat2 m c := by
  refine (W5_arr m ρ c 2).trans ((region2 (V4 m ρ) c).trans ?_)
  rw [show V4 m ρ c main_v47 = _ from W4_exit m ρ c, show V4 m ρ c main_arg4 = _ from W4_arg4 m ρ c]
  rfl
theorem W5_row (c : Dev nD) : W5 m ρ c (Proc.devRef .tc main_v1) = KGlue.row (m ((c : Thread nD τ).loc main_arg1)) := (W5_of_ne m ρ c main_v1 (by decide)).trans (W4_row m ρ c)
theorem W5_col (c : Dev nD) : W5 m ρ c (Proc.devRef .tc main_v3) = KGlue.col (m ((c : Thread nD τ).loc main_arg1)) := (W5_of_ne m ρ c main_v3 (by decide)).trans (W4_col m ρ c)
theorem W5_norm (c : Dev nD) : W5 m ρ c (Proc.devRef .tc main_v30) = KGlue.norm (m ((c : Thread nD τ).loc main_arg1)) := (W5_of_ne m ρ c main_v30 (by decide)).trans (W4_norm m ρ c)
theorem W5_dsq (c : Dev nD) : W5 m ρ c (Proc.devRef .tc main_v32) = KGlue.dsq (m ((c : Thread nD τ).loc main_arg1)) := (W5_of_ne m ρ c main_v32 (by decide)).trans (W4_dsq m ρ c)

/-! ## The third stretch: the second layer's aggregated messages -/

set_option maxHeartbeats 8000000 in
theorem ops3_agg (W : Valuation τ sig (Elt Ideal)) (ei : IVec S2x1600000 32)
    (h1 : W (Proc.devRef .tc main_v1) = KGlue.row ei) (h3 : W (Proc.devRef .tc main_v3) = KGlue.col ei) (h30 : W (Proc.devRef .tc main_v30) = KGlue.norm ei) :
    StableHlo.after (hostOps3 (F := Ideal)) W (Proc.devRef .tc main_v61) = KGlue.agg (W (Proc.devRef .tc main_v48)) ei := by
  after_results_simp
  rw [h1, h3, h30]
  rfl

theorem W6_agg (c : Dev nD) : W6 m ρ c (Proc.devRef .tc main_v61) = KGlue.agg (feat2 m c) (m ((c : Thread nD τ).loc main_arg1)) := by
  have h := ops3_agg (W5 m ρ c) (m ((c : Thread nD τ).loc main_arg1)) (W5_row m ρ c) (W5_col m ρ c) (W5_norm m ρ c)
  rw [W5_feat m ρ c] at h
  exact h
theorem W6_feat (c : Dev nD) : W6 m ρ c (Proc.devRef .tc main_v48) = feat2 m c :=
  Eq.trans (StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))) (W5_feat m ρ c)
theorem W6_dsq (c : Dev nD) : W6 m ρ c (Proc.devRef .tc main_v32) = KGlue.dsq (m ((c : Thread nD τ).loc main_arg1)) :=
  Eq.trans (StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))) (W5_dsq m ρ c)
/-- an argument array read late is followed FORWARD to the end of the run, where it holds its launch contents -/
theorem W6_arg5 (c : Dev nD) : W6 m ρ c (Proc.devRef .tc main_arg5) = m ((c : Thread nD τ).loc main_arg5) :=
  (((W7_arr m ρ c 3).trans (((dat3 (V6 m ρ) c).arrAt_in 3 rfl _).trans (A_eq3 (V6 m ρ) c 3))).symm.trans
    (W8_of_ne m ρ c main_arg5 (by decide)).symm).trans (W8_main_arg5 m ρ c)

/-! ## The second combine region, then the head -/

theorem W7_exit (c : Dev nD) : W7 m ρ c (Proc.devRef .tc main_v62) = exit2 m c := by
  refine (W7_arr m ρ c 4).trans ((region3 (V6 m ρ) c).trans ?_)
  rw [show V6 m ρ c main_v61 = _ from W6_agg m ρ c, show V6 m ρ c main_v48 = _ from W6_feat m ρ c,
    show V6 m ρ c main_v32 = _ from W6_dsq m ρ c, show V6 m ρ c main_arg5 = _ from W6_arg5 m ρ c]
  rfl
theorem W7_arg6 (c : Dev nD) : W7 m ρ c (Proc.devRef .tc main_arg6) = m ((c : Thread nD τ).loc main_arg6) :=
  ((W8_arr m ρ c 1).trans (((dat4 (V7 m ρ) c).arrAt_in 1 rfl _).trans (A_eq4 (V7 m ρ) c 1))).symm.trans (W8_main_arg6 m ρ c)
theorem W7_arg7 (c : Dev nD) : W7 m ρ c (Proc.devRef .tc main_arg7) = m ((c : Thread nD τ).loc main_arg7) :=
  ((W8_arr m ρ c 2).trans (((dat4 (V7 m ρ) c).arrAt_in 2 rfl _).trans (A_eq4 (V7 m ρ) c 2))).symm.trans (W8_main_arg7 m ρ c)
theorem W7_arg8 (c : Dev nD) : W7 m ρ c (Proc.devRef .tc main_arg8) = m ((c : Thread nD τ).loc main_arg8) :=
  ((W8_arr m ρ c 3).trans (((dat4 (V7 m ρ) c).arrAt_in 3 rfl _).trans (A_eq4 (V7 m ρ) c 3))).symm.trans (W8_main_arg8 m ρ c)
theorem W7_arg9 (c : Dev nD) : W7 m ρ c (Proc.devRef .tc main_arg9) = m ((c : Thread nD τ).loc main_arg9) :=
  ((W8_arr m ρ c 4).trans (((dat4 (V7 m ρ) c).arrAt_in 4 rfl _).trans (A_eq4 (V7 m ρ) c 4))).symm.trans (W8_main_arg9 m ρ c)

/-- The result buffer at the end of the run: the whole network over the program's own message passing. -/
theorem W8_result (c : Dev nD) : W8 m ρ c (Proc.devRef .tc main_v63) =
    Cert.Spec.out KGlue.glue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) := by
  refine (W8_arr m ρ c 5).trans ((region4 (V7 m ρ) c).trans ?_)
  rw [show V7 m ρ c main_v62 = _ from W7_exit m ρ c, show V7 m ρ c main_arg6 = _ from W7_arg6 m ρ c,
    show V7 m ρ c main_arg7 = _ from W7_arg7 m ρ c, show V7 m ρ c main_arg8 = _ from W7_arg8 m ρ c,
    show V7 m ρ c main_arg9 = _ from W7_arg9 m ρ c]
  rfl

end Cert.KernelIdeal.KValue

end
-- ==== Proof.RefOps.lean ====
import proofs.«130374_j21500606284503_1_alg».proof.Proof.Gen.ReferenceIdeal
import Idealize.ShloMosaic.Lib.StableHlo

/-!
# The reference program as one list of host operations

The reference's entry function is a straight line of array operations: two slices and reshapes of the edge
list, a matrix product, the degree count (a scatter-add of ones, plus one), its inverse square root, the
edge weights (two gathers and a product), the gather of source rows, their scaling, the scatter-add into
destination rows, the self-loop term, the bias, the leaky rectifier; the same layer a second time on the
first layer's exit; then the two dense layers of the head. Three of its statements are calls of an outlined
leaky rectifier, whose body is six operations (the zero and its broadcast, the comparison, the slope's
conversion and broadcast, the product) followed by a call of an outlined selection (one operation). Here
every call is written out at its place over that call's own buffers, so the whole program is one list of
158 operations, each writing one buffer of its own.
-/

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

set_option maxRecDepth 4096 in
/-- The entry function's operations in order, each call's seven operations in its place. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst (constant S_ .f32 0x00000000#32),
    unary main_cst main_v5 (broadcastInDim S100000 ![] bcast_S_S100000 : (⟨S_, .f32⟩ : BufTy).Contents (Elt F) → (⟨S100000, .f32⟩ : BufTy).Contents (Elt F)),
    nullary main_c (constantI S_ 32 0#32),
    unary main_c main_v6 (broadcastInDim S1600000 ![] bcast_S_S1600000 : (⟨S_, .i32⟩ : BufTy).Contents (Elt F) → (⟨S1600000, .i32⟩ : BufTy).Contents (Elt F)),
    binary main_v3 main_v6 main_v7 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v8 (broadcastInDim S1600000 ![] bcast_S_S1600000 : (⟨S_, .i32⟩ : BufTy).Contents (Elt F) → (⟨S1600000, .i32⟩ : BufTy).Contents (Elt F)),
    binary main_v3 main_v8 main_v9 (addi : (⟨S1600000, .i32⟩ : BufTy).Contents (Elt F) → (⟨S1600000, .i32⟩ : BufTy).Contents (Elt F) → (⟨S1600000, .i32⟩ : BufTy).Contents (Elt F)),
    ternary main_v7 main_v9 main_v3 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v10 main_v11 (broadcastInDim S1600000x1 ![0] bcast_S1600000_S1600000x1_0 : (⟨S1600000, .i32⟩ : BufTy).Contents (Elt F) → (⟨S1600000x1, .i32⟩ : BufTy).Contents (Elt F)),
    nullary main_cst_1 (constant S_ .f32 0x3F800000#32),
    unary main_cst_1 main_v12 (broadcastInDim S1600000 ![] bcast_S_S1600000 : (⟨S_, .f32⟩ : BufTy).Contents (Elt F) → (⟨S1600000, .f32⟩ : BufTy).Contents (Elt F)),
    ternary main_v5 main_v11 main_v12 main_v13 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x3F800000#32),
    unary main_cst_2 main_v14 (broadcastInDim S100000 ![] bcast_S_S100000 : (⟨S_, .f32⟩ : BufTy).Contents (Elt F) → (⟨S100000, .f32⟩ : BufTy).Contents (Elt F)),
    binary main_v13 main_v14 main_v15 (addf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_c_3 (constantI S_ 32 0#32),
    unary main_c_3 main_v17 (broadcastInDim S1600000 ![] bcast_S_S1600000 : (⟨S_, .i32⟩ : BufTy).Contents (Elt F) → (⟨S1600000, .i32⟩ : BufTy).Contents (Elt F)),
    binary main_v1 main_v17 main_v18 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v19 (broadcastInDim S1600000 ![] bcast_S_S1600000 : (⟨S_, .i32⟩ : BufTy).Contents (Elt F) → (⟨S1600000, .i32⟩ : BufTy).Contents (Elt F)),
    binary main_v1 main_v19 main_v20 (addi : (⟨S1600000, .i32⟩ : BufTy).Contents (Elt F) → (⟨S1600000, .i32⟩ : BufTy).Contents (Elt F) → (⟨S1600000, .i32⟩ : BufTy).Contents (Elt F)),
    ternary main_v18 main_v20 main_v1 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v21 main_v22 (broadcastInDim S1600000x1 ![0] bcast_S1600000_S1600000x1_0 : (⟨S1600000, .i32⟩ : BufTy).Contents (Elt F) → (⟨S1600000x1, .i32⟩ : BufTy).Contents (Elt F)),
    binary main_v16 main_v22 main_v23 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_5 (constantI S_ 32 0#32),
    unary main_c_5 main_v24 (broadcastInDim S1600000 ![] bcast_S_S1600000 : (⟨S_, .i32⟩ : BufTy).Contents (Elt F) → (⟨S1600000, .i32⟩ : BufTy).Contents (Elt F)),
    binary main_v3 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v26 (broadcastInDim S1600000 ![] bcast_S_S1600000 : (⟨S_, .i32⟩ : BufTy).Contents (Elt F) → (⟨S1600000, .i32⟩ : BufTy).Contents (Elt F)),
    binary main_v3 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_v3 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v16 main_v29 main_v30 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v23 main_v30 main_v31 (mulf : (⟨S1600000, .f32⟩ : BufTy).Contents (Elt F) → (⟨S1600000, .f32⟩ : BufTy).Contents (Elt F) → (⟨S1600000, .f32⟩ : BufTy).Contents (Elt F)),
    nullary main_c_7 (constantI S_ 32 0#32),
    unary main_c_7 main_v32 (broadcastInDim S1600000 ![] bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v34 (broadcastInDim S1600000 ![] bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v4 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v31 main_v39 (broadcastInDim S1600000x1 ![0] bcast_S1600000_S1600000x1_0 : (⟨S1600000, .f32⟩ : BufTy).Contents (Elt F) → (⟨S1600000x1, .f32⟩ : BufTy).Contents (Elt F)),
    unary main_v39 main_v40 (broadcastInDim S1600000x128 ![0, 1] bcast_S1600000x1_S1600000x128_0_1 : (⟨S1600000x1, .f32⟩ : BufTy).Contents (Elt F) → (⟨S1600000x128, .f32⟩ : BufTy).Contents (Elt F)),
    binary main_v38 main_v40 main_v41 (mulf : (⟨S1600000x128, .f32⟩ : BufTy).Contents (Elt F) → (⟨S1600000x128, .f32⟩ : BufTy).Contents (Elt F) → (⟨S1600000x128, .f32⟩ : BufTy).Contents (Elt F)),
    nullary main_cst_9 (constant S_ .f32 0x00000000#32),
    unary main_cst_9 main_v42 (broadcastInDim S100000x128 ![] bcast_S_S100000x128 : (⟨S_, .f32⟩ : BufTy).Contents (Elt F) → (⟨S100000x128, .f32⟩ : BufTy).Contents (Elt F)),
    unary main_v3 main_v43 (broadcastInDim S1600000x1 ![0] bcast_S1600000_S1600000x1_0 : (⟨S1600000, .i32⟩ : BufTy).Contents (Elt F) → (⟨S1600000x1, .i32⟩ : BufTy).Contents (Elt F)),
    ternary main_v42 main_v43 main_v41 main_v44 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v16 main_v16 main_v45 (mulf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x128 ![0, 1] bcast_S100000x1_S100000x128_0_1 : (⟨S100000x1, .f32⟩ : BufTy).Contents (Elt F) → (⟨S100000x128, .f32⟩ : BufTy).Contents (Elt F)),
    binary main_v4 main_v47 main_v48 (mulf : (⟨S100000x128, .f32⟩ : BufTy).Contents (Elt F) → (⟨S100000x128, .f32⟩ : BufTy).Contents (Elt F) → (⟨S100000x128, .f32⟩ : BufTy).Contents (Elt F)),
    binary main_v44 main_v48 main_v49 (addf : (⟨S100000x128, .f32⟩ : BufTy).Contents (Elt F) → (⟨S100000x128, .f32⟩ : BufTy).Contents (Elt F) → (⟨S100000x128, .f32⟩ : BufTy).Contents (Elt F)),
    unary main_arg3 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (addf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3C23D70A#32),
    TRef.nullary main_call0.cst (constant S_ .f32 0x00000000#32),
    TRef.unary main_call0.cst main_call0.v0 (broadcastInDim S100000x128 ![] bcast_S_S100000x128),
    TRef.binary (.of main_v52 : TRef sig ⟨S100000x128, .f32⟩) main_call0.v0 main_call0.v1 (cmpf .oge),
    TRef.unary (.of main_cst_10 : TRef sig ⟨S_, .f32⟩) main_call0.v2 id,
    TRef.unary main_call0.v2 main_call0.v3 (broadcastInDim S100000x128 ![] bcast_S_S100000x128),
    TRef.binary main_call0.v3 (.of main_v52 : TRef sig ⟨S100000x128, .f32⟩) main_call0.v4 mulf,
    TRef.ternary main_call0.v1 (.of main_v52 : TRef sig ⟨S100000x128, .f32⟩) main_call0.v4 main_call0.call0.v0 select,
    binary main_v53 main_arg4 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_11 (constant S_ .f32 0x00000000#32),
    unary main_cst_11 main_v55 (broadcastInDim S100000 ![] bcast_S_S100000 : (⟨S_, .f32⟩ : BufTy).Contents (Elt F) → (⟨S100000, .f32⟩ : BufTy).Contents (Elt F)),
    nullary main_c_12 (constantI S_ 32 0#32),
    unary main_c_12 main_v56 (broadcastInDim S1600000 ![] bcast_S_S1600000 : (⟨S_, .i32⟩ : BufTy).Contents (Elt F) → (⟨S1600000, .i32⟩ : BufTy).Contents (Elt F)),
    binary main_v3 main_v56 main_v57 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v58 (broadcastInDim S1600000 ![] bcast_S_S1600000 : (⟨S_, .i32⟩ : BufTy).Contents (Elt F) → (⟨S1600000, .i32⟩ : BufTy).Contents (Elt F)),
    binary main_v3 main_v58 main_v59 (addi : (⟨S1600000, .i32⟩ : BufTy).Contents (Elt F) → (⟨S1600000, .i32⟩ : BufTy).Contents (Elt F) → (⟨S1600000, .i32⟩ : BufTy).Contents (Elt F)),
    ternary main_v57 main_v59 main_v3 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v60 main_v61 (broadcastInDim S1600000x1 ![0] bcast_S1600000_S1600000x1_0 : (⟨S1600000, .i32⟩ : BufTy).Contents (Elt F) → (⟨S1600000x1, .i32⟩ : BufTy).Contents (Elt F)),
    nullary main_cst_14 (constant S_ .f32 0x3F800000#32),
    unary main_cst_14 main_v62 (broadcastInDim S1600000 ![] bcast_S_S1600000 : (⟨S_, .f32⟩ : BufTy).Contents (Elt F) → (⟨S1600000, .f32⟩ : BufTy).Contents (Elt F)),
    ternary main_v55 main_v61 main_v62 main_v63 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_15 (constant S_ .f32 0x3F800000#32),
    unary main_cst_15 main_v64 (broadcastInDim S100000 ![] bcast_S_S100000 : (⟨S_, .f32⟩ : BufTy).Contents (Elt F) → (⟨S100000, .f32⟩ : BufTy).Contents (Elt F)),
    binary main_v63 main_v64 main_v65 (addf : (⟨S100000, .f32⟩ : BufTy).Contents (Elt F) → (⟨S100000, .f32⟩ : BufTy).Contents (Elt F) → (⟨S100000, .f32⟩ : BufTy).Contents (Elt F)),
    unary main_v65 main_v66 (Host.rsqrt : (⟨S100000, .f32⟩ : BufTy).Contents (Elt F) → (⟨S100000, .f32⟩ : BufTy).Contents (Elt F)),
    nullary main_c_16 (constantI S_ 32 0#32),
    unary main_c_16 main_v67 (broadcastInDim S1600000 ![] bcast_S_S1600000 : (⟨S_, .i32⟩ : BufTy).Contents (Elt F) → (⟨S1600000, .i32⟩ : BufTy).Contents (Elt F)),
    binary main_v1 main_v67 main_v68 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v69 (broadcastInDim S1600000 ![] bcast_S_S1600000 : (⟨S_, .i32⟩ : BufTy).Contents (Elt F) → (⟨S1600000, .i32⟩ : BufTy).Contents (Elt F)),
    binary main_v1 main_v69 main_v70 (addi : (⟨S1600000, .i32⟩ : BufTy).Contents (Elt F) → (⟨S1600000, .i32⟩ : BufTy).Contents (Elt F) → (⟨S1600000, .i32⟩ : BufTy).Contents (Elt F)),
    ternary main_v68 main_v70 main_v1 main_v71 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v71 main_v72 (broadcastInDim S1600000x1 ![0] bcast_S1600000_S1600000x1_0 : (⟨S1600000, .i32⟩ : BufTy).Contents (Elt F) → (⟨S1600000x1, .i32⟩ : BufTy).Contents (Elt F)),
    binary main_v66 main_v72 main_v73 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_18 (constantI S_ 32 0#32),
    unary main_c_18 main_v74 (broadcastInDim S1600000 ![] bcast_S_S1600000 : (⟨S_, .i32⟩ : BufTy).Contents (Elt F) → (⟨S1600000, .i32⟩ : BufTy).Contents (Elt F)),
    binary main_v3 main_v74 main_v75 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v76 (broadcastInDim S1600000 ![] bcast_S_S1600000 : (⟨S_, .i32⟩ : BufTy).Contents (Elt F) → (⟨S1600000, .i32⟩ : BufTy).Contents (Elt F)),
    binary main_v3 main_v76 main_v77 (addi : (⟨S1600000, .i32⟩ : BufTy).Contents (Elt F) → (⟨S1600000, .i32⟩ : BufTy).Contents (Elt F) → (⟨S1600000, .i32⟩ : BufTy).Contents (Elt F)),
    ternary main_v75 main_v77 main_v3 main_v78 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v78 main_v79 (broadcastInDim S1600000x1 ![0] bcast_S1600000_S1600000x1_0 : (⟨S1600000, .i32⟩ : BufTy).Contents (Elt F) → (⟨S1600000x1, .i32⟩ : BufTy).Contents (Elt F)),
    binary main_v66 main_v79 main_v80 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v73 main_v80 main_v81 (mulf : (⟨S1600000, .f32⟩ : BufTy).Contents (Elt F) → (⟨S1600000, .f32⟩ : BufTy).Contents (Elt F) → (⟨S1600000, .f32⟩ : BufTy).Contents (Elt F)),
    nullary main_c_20 (constantI S_ 32 0#32),
    unary main_c_20 main_v82 (broadcastInDim S1600000 ![] bcast_S_S1600000 : (⟨S_, .i32⟩ : BufTy).Contents (Elt F) → (⟨S1600000, .i32⟩ : BufTy).Contents (Elt F)),
    binary main_v1 main_v82 main_v83 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v84 (broadcastInDim S1600000 ![] bcast_S_S1600000 : (⟨S_, .i32⟩ : BufTy).Contents (Elt F) → (⟨S1600000, .i32⟩ : BufTy).Contents (Elt F)),
    binary main_v1 main_v84 main_v85 (addi : (⟨S1600000, .i32⟩ : BufTy).Contents (Elt F) → (⟨S1600000, .i32⟩ : BufTy).Contents (Elt F) → (⟨S1600000, .i32⟩ : BufTy).Contents (Elt F)),
    ternary main_v83 main_v85 main_v1 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v86 main_v87 (broadcastInDim S1600000x1 ![0] bcast_S1600000_S1600000x1_0 : (⟨S1600000, .i32⟩ : BufTy).Contents (Elt F) → (⟨S1600000x1, .i32⟩ : BufTy).Contents (Elt F)),
    binary main_v54 main_v87 main_v88 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v81 main_v89 (broadcastInDim S1600000x1 ![0] bcast_S1600000_S1600000x1_0 : (⟨S1600000, .f32⟩ : BufTy).Contents (Elt F) → (⟨S1600000x1, .f32⟩ : BufTy).Contents (Elt F)),
    unary main_v89 main_v90 (broadcastInDim S1600000x128 ![0, 1] bcast_S1600000x1_S1600000x128_0_1 : (⟨S1600000x1, .f32⟩ : BufTy).Contents (Elt F) → (⟨S1600000x128, .f32⟩ : BufTy).Contents (Elt F)),
    binary main_v88 main_v90 main_v91 (mulf : (⟨S1600000x128, .f32⟩ : BufTy).Contents (Elt F) → (⟨S1600000x128, .f32⟩ : BufTy).Contents (Elt F) → (⟨S1600000x128, .f32⟩ : BufTy).Contents (Elt F)),
    nullary main_cst_22 (constant S_ .f32 0x00000000#32),
    unary main_cst_22 main_v92 (broadcastInDim S100000x128 ![] bcast_S_S100000x128 : (⟨S_, .f32⟩ : BufTy).Contents (Elt F) → (⟨S100000x128, .f32⟩ : BufTy).Contents (Elt F)),
    unary main_v3 main_v93 (broadcastInDim S1600000x1 ![0] bcast_S1600000_S1600000x1_0 : (⟨S1600000, .i32⟩ : BufTy).Contents (Elt F) → (⟨S1600000x1, .i32⟩ : BufTy).Contents (Elt F)),
    ternary main_v92 main_v93 main_v91 main_v94 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v66 main_v66 main_v95 (mulf : (⟨S100000, .f32⟩ : BufTy).Contents (Elt F) → (⟨S100000, .f32⟩ : BufTy).Contents (Elt F) → (⟨S100000, .f32⟩ : BufTy).Contents (Elt F)),
    unary main_v95 main_v96 (broadcastInDim S100000x1 ![0] bcast_S100000_S100000x1_0 : (⟨S100000, .f32⟩ : BufTy).Contents (Elt F) → (⟨S100000x1, .f32⟩ : BufTy).Contents (Elt F)),
    unary main_v96 main_v97 (broadcastInDim S100000x128 ![0, 1] bcast_S100000x1_S100000x128_0_1 : (⟨S100000x1, .f32⟩ : BufTy).Contents (Elt F) → (⟨S100000x128, .f32⟩ : BufTy).Contents (Elt F)),
    binary main_v54 main_v97 main_v98 (mulf : (⟨S100000x128, .f32⟩ : BufTy).Contents (Elt F) → (⟨S100000x128, .f32⟩ : BufTy).Contents (Elt F) → (⟨S100000x128, .f32⟩ : BufTy).Contents (Elt F)),
    binary main_v94 main_v98 main_v99 (addf : (⟨S100000x128, .f32⟩ : BufTy).Contents (Elt F) → (⟨S100000x128, .f32⟩ : BufTy).Contents (Elt F) → (⟨S100000x128, .f32⟩ : BufTy).Contents (Elt F)),
    unary main_arg5 main_v100 (broadcastInDim S1x128 ![1] bcast_S128_S1x128_1 : (⟨S128, .f32⟩ : BufTy).Contents (Elt F) → (⟨S1x128, .f32⟩ : BufTy).Contents (Elt F)),
    unary main_v100 main_v101 (broadcastInDim S100000x128 ![0, 1] bcast_S1x128_S100000x128_0_1 : (⟨S1x128, .f32⟩ : BufTy).Contents (Elt F) → (⟨S100000x128, .f32⟩ : BufTy).Contents (Elt F)),
    binary main_v99 main_v101 main_v102 (addf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x3C23D70A#32),
    TRef.nullary main_call1.cst (constant S_ .f32 0x00000000#32),
    TRef.unary main_call1.cst main_call1.v0 (broadcastInDim S100000x128 ![] bcast_S_S100000x128),
    TRef.binary (.of main_v102 : TRef sig ⟨S100000x128, .f32⟩) main_call1.v0 main_call1.v1 (cmpf .oge),
    TRef.unary (.of main_cst_23 : TRef sig ⟨S_, .f32⟩) main_call1.v2 id,
    TRef.unary main_call1.v2 main_call1.v3 (broadcastInDim S100000x128 ![] bcast_S_S100000x128),
    TRef.binary main_call1.v3 (.of main_v102 : TRef sig ⟨S100000x128, .f32⟩) main_call1.v4 mulf,
    TRef.ternary main_call1.v1 (.of main_v102 : TRef sig ⟨S100000x128, .f32⟩) main_call1.v4 main_call1.call0.v0 select,
    binary main_v103 main_arg6 main_v104 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg7 main_v105 (broadcastInDim S1x64 ![1] bcast_S64_S1x64_1 : (⟨S64, .f32⟩ : BufTy).Contents (Elt F) → (⟨S1x64, .f32⟩ : BufTy).Contents (Elt F)),
    unary main_v105 main_v106 (broadcastInDim S100000x64 ![0, 1] bcast_S1x64_S100000x64_0_1 : (⟨S1x64, .f32⟩ : BufTy).Contents (Elt F) → (⟨S100000x64, .f32⟩ : BufTy).Contents (Elt F)),
    binary main_v104 main_v106 main_v107 (addf : (⟨S100000x64, .f32⟩ : BufTy).Contents (Elt F) → (⟨S100000x64, .f32⟩ : BufTy).Contents (Elt F) → (⟨S100000x64, .f32⟩ : BufTy).Contents (Elt F)),
    nullary main_cst_24 (constant S_ .f32 0x3C23D70A#32),
    TRef.nullary main_call2.cst (constant S_ .f32 0x00000000#32),
    TRef.unary main_call2.cst main_call2.v0 (broadcastInDim S100000x64 ![] bcast_S_S100000x64),
    TRef.binary (.of main_v107 : TRef sig ⟨S100000x64, .f32⟩) main_call2.v0 main_call2.v1 (cmpf .oge),
    TRef.unary (.of main_cst_24 : TRef sig ⟨S_, .f32⟩) main_call2.v2 id,
    TRef.unary main_call2.v2 main_call2.v3 (broadcastInDim S100000x64 ![] bcast_S_S100000x64),
    TRef.binary main_call2.v3 (.of main_v107 : TRef sig ⟨S100000x64, .f32⟩) main_call2.v4 mulf,
    TRef.ternary main_call2.v1 (.of main_v107 : TRef sig ⟨S100000x64, .f32⟩) main_call2.v4 main_call2.call0.v0 select,
    binary main_v108 main_arg8 main_v109 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg9 main_v110 (broadcastInDim S1x1 ![1] bcast_S1_S1x1_1 : (⟨S1, .f32⟩ : BufTy).Contents (Elt F) → (⟨S1x1, .f32⟩ : BufTy).Contents (Elt F)),
    unary main_v110 main_v111 (broadcastInDim S100000x1 ![0, 1] bcast_S1x1_S100000x1_0_1 : (⟨S1x1, .f32⟩ : BufTy).Contents (Elt F) → (⟨S100000x1, .f32⟩ : BufTy).Contents (Elt F)),
    binary main_v109 main_v111 main_v112 (addf : (⟨S100000x1, .f32⟩ : BufTy).Contents (Elt F) → (⟨S100000x1, .f32⟩ : BufTy).Contents (Elt F) → (⟨S100000x1, .f32⟩ : BufTy).Contents (Elt F)) ]

end Cert.ReferenceIdeal.RefRun

end
-- ==== Proof.RefRun.lean ====
import proofs.«130374_j21500606284503_1_alg».proof.Proof.RefOps
import Idealize.ShloMosaic.Lib.StableHlo.Run
import Idealize.ShloMosaic.PureOps.Ideal

/-!
# The run of the reference program

The reference's entry function, with its three calls of the outlined leaky rectifier (each of which calls the
outlined selection) unfolded at their places, IS the straight line `seq ops` of the 158 operations of
`RefOps.lean`: both sides are the same chain of single-operation steps, by computation. The signature scopes no
buffer and no semaphore, every operation touches buffers of the one processor only and determines its result, so
every weakly fair execution of the program terminates and each buffer ends at the fold `after ops` of the
operations' results over the contents at the start. The result buffer's value is left in that form, as the fold;
each of the ten argument buffers is the result buffer of no operation, so it ends holding what it held.
-/

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The entry function is the straight line of its operations: the three windows in order, each call's body (six
    operations, then the selection's one) in the call's place over the call's own buffers. -/
theorem main_eq (c : Dev nD) : main (F := F) c = seq ops := rfl

/-- The signature scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

set_option maxRecDepth 100000 in
/-- Every operation touches buffers of the one processor only. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

set_option maxRecDepth 100000 in
set_option maxHeartbeats 4000000 in
/-- Every operation determines its result: none leaves a buffer's contents unspecified. -/
theorem ops_fresh : ∀ op ∈ (ops : List (HloOp τ sig (Elt F))), op.fresh = ∅ := by
  intro _ h; (repeat (cases h with | head => rfl | tail _ h => ?_)); exact nomatch h

set_option maxRecDepth 100000 in
set_option maxHeartbeats 4000000 in
/-- No operation writes argument 0's buffer: it holds at the end what it held at the start. -/
theorem arg0_keep (V : Valuation τ sig (Elt F)) :
    after ops V (Proc.devRef .tc main_arg0) = V (Proc.devRef .tc main_arg0) := by
  after_results_simp

set_option maxRecDepth 100000 in
set_option maxHeartbeats 4000000 in
/-- No operation writes argument 1's buffer: it holds at the end what it held at the start. -/
theorem arg1_keep (V : Valuation τ sig (Elt F)) :
    after ops V (Proc.devRef .tc main_arg1) = V (Proc.devRef .tc main_arg1) := by
  after_results_simp

set_option maxRecDepth 100000 in
set_option maxHeartbeats 4000000 in
/-- No operation writes argument 2's buffer: it holds at the end what it held at the start. -/
theorem arg2_keep (V : Valuation τ sig (Elt F)) :
    after ops V (Proc.devRef .tc main_arg2) = V (Proc.devRef .tc main_arg2) := by
  after_results_simp

set_option maxRecDepth 100000 in
set_option maxHeartbeats 4000000 in
/-- No operation writes argument 3's buffer: it holds at the end what it held at the start. -/
theorem arg3_keep (V : Valuation τ sig (Elt F)) :
    after ops V (Proc.devRef .tc main_arg3) = V (Proc.devRef .tc main_arg3) := by
  after_results_simp

set_option maxRecDepth 100000 in
set_option maxHeartbeats 4000000 in
/-- No operation writes argument 4's buffer: it holds at the end what it held at the start. -/
theorem arg4_keep (V : Valuation τ sig (Elt F)) :
    after ops V (Proc.devRef .tc main_arg4) = V (Proc.devRef .tc main_arg4) := by
  after_results_simp

set_option maxRecDepth 100000 in
set_option maxHeartbeats 4000000 in
/-- No operation writes argument 5's buffer: it holds at the end what it held at the start. -/
theorem arg5_keep (V : Valuation τ sig (Elt F)) :
    after ops V (Proc.devRef .tc main_arg5) = V (Proc.devRef .tc main_arg5) := by
  after_results_simp

set_option maxRecDepth 100000 in
set_option maxHeartbeats 4000000 in
/-- No operation writes argument 6's buffer: it holds at the end what it held at the start. -/
theorem arg6_keep (V : Valuation τ sig (Elt F)) :
    after ops V (Proc.devRef .tc main_arg6) = V (Proc.devRef .tc main_arg6) := by
  after_results_simp

set_option maxRecDepth 100000 in
set_option maxHeartbeats 4000000 in
/-- No operation writes argument 7's buffer: it holds at the end what it held at the start. -/
theorem arg7_keep (V : Valuation τ sig (Elt F)) :
    after ops V (Proc.devRef .tc main_arg7) = V (Proc.devRef .tc main_arg7) := by
  after_results_simp

set_option maxRecDepth 100000 in
set_option maxHeartbeats 4000000 in
/-- No operation writes argument 8's buffer: it holds at the end what it held at the start. -/
theorem arg8_keep (V : Valuation τ sig (Elt F)) :
    after ops V (Proc.devRef .tc main_arg8) = V (Proc.devRef .tc main_arg8) := by
  after_results_simp

set_option maxRecDepth 100000 in
set_option maxHeartbeats 4000000 in
/-- No operation writes argument 9's buffer: it holds at the end what it held at the start. -/
theorem arg9_keep (V : Valuation τ sig (Elt F)) :
    after ops V (Proc.devRef .tc main_arg9) = V (Proc.devRef .tc main_arg9) := by
  after_results_simp

/-- Over the extended reals, on every device, from any memory with zero counters: every weakly fair execution of
    the entry function terminates with the result buffer at the fold of the 158 operations over the contents at
    the start, and each of the ten argument buffers unchanged. -/
theorem run_after (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v112) = StableHlo.after (ops (F := Ideal)) (fun b => m ((c : Dev nD), b)) (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun _ h c => ⟨h c main_v112,
      (h c main_arg0).trans (arg0_keep (F := Ideal) _),
      (h c main_arg1).trans (arg1_keep (F := Ideal) _),
      (h c main_arg2).trans (arg2_keep (F := Ideal) _),
      (h c main_arg3).trans (arg3_keep (F := Ideal) _),
      (h c main_arg4).trans (arg4_keep (F := Ideal) _),
      (h c main_arg5).trans (arg5_keep (F := Ideal) _),
      (h c main_arg6).trans (arg6_keep (F := Ideal) _),
      (h c main_arg7).trans (arg7_keep (F := Ideal) _),
      (h c main_arg8).trans (arg8_keep (F := Ideal) _),
      (h c main_arg9).trans (arg9_keep (F := Ideal) _)⟩)
    (run_seq scopedRefs_eq scopedSems_eq (defs (F := Ideal)) (main (F := Ideal)) (fun _ => ops (F := Ideal)) main_eq (fun _ => ops_sub) m ρ (fun _ => ops_fresh))

end Cert.ReferenceIdeal.RefRun

end
-- ==== Proof.RefValue.lean ====
import proofs.«130374_j21500606284503_1_alg».proof.Proof.RefOps
import proofs.«130374_j21500606284503_1_alg».proof.Proof.Spec
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.StackMember

/-!
# The value of the reference program's result, as the specification's function of the arguments

Over the extended reals. The reference is a straight line of array operations: a matrix product, the message
passing (degree count, inverse square root, edge weights, gather of source rows, scatter-add into destination
rows), the self-loop term and the bias through the leaky rectifier; the same layer again on the first layer's
exit; then a dense layer through the rectifier and a dense layer to one value.

* `glue` is the message passing as two functions of the edge list, spelt in the program's own operations.
* `host_mm_…`: each of the three products (one contracted axis, rows by columns) is the specification's `mm`.
* `host_leaky_…`: the rectifier as the program computes it — a selection between `v` and slope · `v` on the
  comparison `v ≥ 0`, the zero and the slope splat from scalars — is `leaky` entry by entry.
* `host_combine`: the rectifier of (aggregate + table · column + bias row) is `combine`: the column is read at
  `(p, 0)` for every entry `(p, j)`, the bias at `j`.
* `host_decode`: the product of the rectified (product + bias row) with the last weights, plus the last bias, is
  `decode`.
* `value`: the result buffer after the run holds `out glue` of the ten arguments' contents.
-/

noncomputable section

namespace Cert.ReferenceIdeal.RefValue

open Cert.ReferenceIdeal
open Idealize.ShloMosaic Idealize.ShloMosaic.ValueIdx Idealize.ShloMosaic.StableHlo Idealize.SL.Sem
open Facts₀ Facts

/-! ## The message passing, in the reference's own operations -/

/-- the source node of each edge: row 0 of the edge list -/
def row (ei : IVec S2x1600000 32) : IVec S1600000 32 :=
  shapeCast S1600000 (extractStridedSlice S1x1600000 ![0, 0] ei slices_S2x1600000_S1x1600000_0_0) shapeCasts_S1x1600000_S1600000
/-- the destination node of each edge: row 1 of the edge list -/
def col (ei : IVec S2x1600000 32) : IVec S1600000 32 :=
  shapeCast S1600000 (extractStridedSlice S1x1600000 ![1, 0] ei slices_S2x1600000_S1x1600000_1_0) shapeCasts_S1x1600000_S1600000
/-- a negative node number counted from the end: `v + 100000` where `v < 0` -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v
/-- the inverse square root of each node's degree (edges arriving, plus one for the self-loop) -/
def dinv (ei : IVec S2x1600000 32) : FVec Ideal S100000 .f32 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 (wrap (col ei)))
      (broadcastInDim S1600000 ![] bcast_S_S1600000 (constant S_ .f32 0x3F800000#32)))
    (broadcastInDim S100000 ![] bcast_S_S100000 (constant S_ .f32 0x3F800000#32)))
/-- each edge's weight: the product of its two ends' inverse square root degrees -/
def norm (ei : IVec S2x1600000 32) : FVec Ideal S1600000 .f32 :=
  mulf
    (Host.gather gather_S100000_S1600000x1_S1600000_n_0_n_n_0_1_1 (dinv ei)
      (broadcastInDim S1600000x1 ![0] bcast_S1600000_S1600000x1_0 (wrap (row ei))))
    (Host.gather gather_S100000_S1600000x1_S1600000_n_0_n_n_0_1_1 (dinv ei)
      (broadcastInDim S1600000x1 ![0] bcast_S1600000_S1600000x1_0 (wrap (col ei))))
/-- the aggregated messages of a feature table: each edge carries its source row times its weight to its destination row -/
def agg (h : FVec Ideal S100000x128 .f32) (ei : IVec S2x1600000 32) :
    FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (col ei))
    (mulf
      (Host.gather gather_S100000x128_S1600000x1_S1600000x128_1_0_n_n_0_1_1128 h
        (broadcastInDim S1600000x1 ![0] bcast_S1600000_S1600000x1_0 (wrap (row ei))))
      (broadcastInDim S1600000x128 ![0, 1] bcast_S1600000x1_S1600000x128_0_1
        (broadcastInDim S1600000x1 ![0] bcast_S1600000_S1600000x1_0 (norm ei))))
/-- the column of self-loop weights: the inverse degree -/
def dsq (ei : IVec S2x1600000 32) : FVec Ideal S100000x1 .f32 :=
  broadcastInDim S100000x1 ![0] bcast_S100000_S100000x1_0 (mulf (dinv ei) (dinv ei))
/-- the message passing of the specification, in this program's own operations -/
def glue : Cert.Spec.Glue where
  agg := agg
  dsq := dsq

/-! ## The matrix products -/

/-- A product with one contracted axis, rows by columns, is the specification's matrix product: the
    dimension numbers are the plain ones whatever their well-formedness proof. -/
theorem host_mm_plain {R K C : Nat}
    (wf : DotDims.WF (⟨2, ![R, K]⟩ : Shape) ⟨2, ![K, C]⟩ ⟨2, ![R, C]⟩ [1] [0] [0] [1] [] [])
    (l : (⟨2, ![R, K]⟩ : Shape).Idx → EReal) (r : (⟨2, ![K, C]⟩ : Shape).Idx → EReal) :
    Host.dotGeneral (F := Ideal) (φ₁ := .f32) (φ₂ := .f32)
      (⟨[1], [0], [0], [1], [], [], wf⟩ : DotDims (⟨2, ![R, K]⟩ : Shape) ⟨2, ![K, C]⟩ ⟨2, ![R, C]⟩) none l r = Cert.Spec.mm l r := by
  funext i
  obtain ⟨a, b, rfl⟩ : ∃ (a : Fin R) (b : Fin C), i = ix2 a b := ⟨i 0, i 1, eq_ix2 i⟩
  exact StackMember.dotGeneral_plain_apply (φ₁ := .f32) (φ₂ := .f32) none l r a b

theorem host_mm_128x128 (l : S100000x128.Idx → EReal) (r : S128x128.Idx → EReal) :
    Host.dotGeneral (F := Ideal) (φ₁ := .f32) (φ₂ := .f32) dot_S100000x128_S128x128_S100000x128_1_0_0_1_n_n none l r = Cert.Spec.mm l r :=
  host_mm_plain _ l r

theorem host_mm_128x64 (l : S100000x128.Idx → EReal) (r : S128x64.Idx → EReal) :
    Host.dotGeneral (F := Ideal) (φ₁ := .f32) (φ₂ := .f32) dot_S100000x128_S128x64_S100000x64_1_0_0_1_n_n none l r = Cert.Spec.mm l r :=
  host_mm_plain _ l r

theorem host_mm_64x1 (l : S100000x64.Idx → EReal) (r : S64x1.Idx → EReal) :
    Host.dotGeneral (F := Ideal) (φ₁ := .f32) (φ₂ := .f32) dot_S100000x64_S64x1_S100000x1_1_0_0_1_n_n none l r = Cert.Spec.mm l r :=
  host_mm_plain _ l r

/-! ## The rectifier, as the outlined functions compute it -/

theorem host_leaky_128 (X : FVec Ideal S100000x128 .f32) :
    select (cmpf (F := Ideal) (φ := .f32) .oge X (broadcastInDim S100000x128 ![] bcast_S_S100000x128 (constant (F := Ideal) S_ .f32 0x00000000#32))) X
      (mulf (F := Ideal) (φ := .f32) (broadcastInDim S100000x128 ![] bcast_S_S100000x128 (id (constant (F := Ideal) S_ .f32 0x3C23D70A#32))) X)
      = fun i => Cert.Spec.leaky (X i) := by
  funext i
  rfl

theorem host_leaky_64 (X : FVec Ideal S100000x64 .f32) :
    select (cmpf (F := Ideal) (φ := .f32) .oge X (broadcastInDim S100000x64 ![] bcast_S_S100000x64 (constant (F := Ideal) S_ .f32 0x00000000#32))) X
      (mulf (F := Ideal) (φ := .f32) (broadcastInDim S100000x64 ![] bcast_S_S100000x64 (id (constant (F := Ideal) S_ .f32 0x3C23D70A#32))) X)
      = fun i => Cert.Spec.leaky (X i) := by
  funext i
  rfl

/-! ## One layer's exit and the head -/

/-- A column read along the feature axis: entry `(p, j)` is the column's entry `(p, 0)`. -/
theorem bcast_col_apply (D : FVec Ideal S100000x1 .f32) (i : S100000x128.Idx) :
    broadcastInDim S100000x128 ![0, 1] bcast_S100000x1_S100000x128_0_1 D i = D (ix2 (i 0) 0) := by
  refine broadcastInDim_apply _ _ _ _ _ fun a => ?_
  match a with
  | ⟨0, _⟩ => rfl
  | ⟨1, _⟩ => rfl

/-- A bias row read down the node axis: entry `(p, j)` is the bias's entry `j`. -/
theorem bcast_row128_apply (b : FVec Ideal S128 .f32) (i : S100000x128.Idx) :
    broadcastInDim S100000x128 ![0, 1] bcast_S1x128_S100000x128_0_1 (broadcastInDim S1x128 ![1] bcast_S128_S1x128_1 b) i = b (ix1 (i 1)) := by
  refine (broadcastInDim_apply _ _ _ i (ix2 0 (i 1)) fun a => ?_).trans (broadcastInDim_apply _ _ _ _ _ fun a => ?_)
  · match a with
    | ⟨0, _⟩ => rfl
    | ⟨1, _⟩ => rfl
  · match a with
    | ⟨0, _⟩ => rfl

theorem bcast_row64_apply (b : FVec Ideal S64 .f32) (i : S100000x64.Idx) :
    broadcastInDim S100000x64 ![0, 1] bcast_S1x64_S100000x64_0_1 (broadcastInDim S1x64 ![1] bcast_S64_S1x64_1 b) i = b (ix1 (i 1)) := by
  refine (broadcastInDim_apply _ _ _ i (ix2 0 (i 1)) fun a => ?_).trans (broadcastInDim_apply _ _ _ _ _ fun a => ?_)
  · match a with
    | ⟨0, _⟩ => rfl
    | ⟨1, _⟩ => rfl
  · match a with
    | ⟨0, _⟩ => rfl

theorem bcast_row1_apply (b : FVec Ideal S1 .f32) (i : S100000x1.Idx) :
    broadcastInDim S100000x1 ![0, 1] bcast_S1x1_S100000x1_0_1 (broadcastInDim S1x1 ![1] bcast_S1_S1x1_1 b) i = b (ix1 (i 1)) := by
  have h1 : (i 1).val = 0 := by have := idx2_lt1 i; omega
  refine (broadcastInDim_apply _ _ _ i (ix2 0 (i 1)) fun a => ?_).trans (broadcastInDim_apply _ _ _ _ _ fun a => ?_)
  · match a with
    | ⟨0, _⟩ => rfl
    | ⟨1, _⟩ => exact h1
  · match a with
    | ⟨0, _⟩ => exact h1

/-- One layer's exit: the aggregated messages plus the self-loop term plus the bias, through the rectifier. -/
theorem host_combine (a h : FVec Ideal S100000x128 .f32) (D : FVec Ideal S100000x1 .f32) (b : FVec Ideal S128 .f32) :
    (fun i => Cert.Spec.leaky
      (addf (F := Ideal) (φ := .f32) (addf (F := Ideal) (φ := .f32) a (mulf (F := Ideal) (φ := .f32) h (broadcastInDim S100000x128 ![0, 1] bcast_S100000x1_S100000x128_0_1 D)))
        (broadcastInDim S100000x128 ![0, 1] bcast_S1x128_S100000x128_0_1 (broadcastInDim S1x128 ![1] bcast_S128_S1x128_1 b)) i))
      = Cert.Spec.combine a h D b := by
  funext i
  unfold Cert.Spec.combine
  rw [addf_apply, addf_apply, mulf_apply, bcast_col_apply, bcast_row128_apply]

/-- The head: a dense layer to 64 features through the rectifier, then a dense layer to one value. -/
theorem host_decode (o : FVec Ideal S100000x128 .f32) (wd1 : FVec Ideal S128x64 .f32) (bd1 : FVec Ideal S64 .f32)
    (wd2 : FVec Ideal S64x1 .f32) (bd2 : FVec Ideal S1 .f32) :
    addf (F := Ideal) (φ := .f32)
      (Cert.Spec.mm (fun i => Cert.Spec.leaky
        (addf (F := Ideal) (φ := .f32) (Cert.Spec.mm o wd1)
          (broadcastInDim S100000x64 ![0, 1] bcast_S1x64_S100000x64_0_1 (broadcastInDim S1x64 ![1] bcast_S64_S1x64_1 bd1)) i)) wd2)
      (broadcastInDim S100000x1 ![0, 1] bcast_S1x1_S100000x1_0_1 (broadcastInDim S1x1 ![1] bcast_S1_S1x1_1 bd2))
      = Cert.Spec.decode o wd1 bd1 wd2 bd2 := by
  funext i
  unfold Cert.Spec.decode
  rw [addf_apply, bcast_row1_apply]
  congr 1
  refine Finset.sum_congr rfl fun k _ => ?_
  beta_reduce
  rw [addf_apply, bcast_row64_apply]

/-! ## The value of the result

The run's fold, read one operation at a time, leaves the result buffer at the operations' composed term over the
arguments' contents. Inside it the three matrix products are the specification's; each rectifier, with the sum it is
applied to, is one layer's exit (twice) or the head's hidden layer; the head's last product and bias close it. What
remains between them — the degree count, its inverse square root, the edge weights, the gather and the scatter-add —
is the message passing above, the same chain in both layers, read off the same edge list. -/

set_option maxRecDepth 65536 in
set_option maxHeartbeats 0 in
theorem value (V0 : Valuation τ sig (Elt Ideal)) :
    StableHlo.after (Cert.ReferenceIdeal.RefRun.ops (F := Ideal)) V0 (Proc.devRef .tc main_v112)
      = Cert.Spec.out glue (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) := by
  simp (disch := decide) only [after_cons, after_nil,
      nullary_result', unary_result', binary_result', ternary_result', reshape_result',
      nullary_result_ne', unary_result_ne', binary_result_ne', ternary_result_ne', reshape_result_ne',
      cast_eq, host_mm_128x128, host_mm_128x64, host_mm_64x1]
  rw [host_leaky_128, host_combine]
  rw [host_leaky_128, host_combine]
  rw [host_leaky_64, host_decode]
  rfl

end Cert.ReferenceIdeal.RefValue
end
-- ==== Proof.lean ====
import proofs.«130374_j21500606284503_1_alg».proof.Defs
import proofs.«130374_j21500606284503_1_alg».proof.Proof.Gen.Kernel
import proofs.«130374_j21500606284503_1_alg».proof.Proof.Gen.Kernel.Frame
import proofs.«130374_j21500606284503_1_alg».proof.Proof.Gen.KernelIdeal
import proofs.«130374_j21500606284503_1_alg».proof.Proof.Gen.KernelIdeal.Frame
import proofs.«130374_j21500606284503_1_alg».proof.Proof.Gen.ReferenceIdeal
import proofs.«130374_j21500606284503_1_alg».proof.Proof.Gen.Pre_finite_inputs
import proofs.«130374_j21500606284503_1_alg».proof.Proof.Spec
import proofs.«130374_j21500606284503_1_alg».proof.Proof.KGlue
import proofs.«130374_j21500606284503_1_alg».proof.Proof.KRun
import proofs.«130374_j21500606284503_1_alg».proof.Proof.KValue
import proofs.«130374_j21500606284503_1_alg».proof.Proof.RefRun
import proofs.«130374_j21500606284503_1_alg».proof.Proof.RefValue
import Idealize.ShloMosaic.Adequacy
import Idealize.ShloMosaic.Init

/-!
# A two-layer graph convolution with a decoding head: the kernel program against its reference

Both programs compute, over the extended reals, the same function of the argument arrays (`Cert.Spec.out`,
Proof/Spec.lean): two graph-convolution layers — a dense product, message passing over the edge list, the
self-loop term and the bias, a leaky rectifier — and a two-layer dense head.

* The kernel program does the dense steps in five pipelined regions (a matrix product per layer, a combine step
  per layer, the head), each blocked by 5000 rows over a grid of 20 points, and the message passing in plain array
  operations between them. Each region's output array is the specification's function of its input arrays
  (Proof/Region0 … Region4: the body's value at an index, then the blocks tiling the array); the contents at
  the program's boundaries are followed through the run (Proof/KValue), which ends with the result buffer at
  `Spec.out` over the program's own message passing (Proof/KGlue).
* The reference does everything in array operations: its run is the fold of its operation list (Proof/RefOps,
  Proof/RefRun) and the fold's value at the result is `Spec.out` over the reference's message passing
  (Proof/RefValue): a `dot_general` is the plain sum over the contracted axis, and the rectifier is one function of
  the entry on both sides (the slope is the same binary32 word, never evaluated).
* The two message passings are the same chain of the same operations on the same edge list (`glue_eq`), so the two
  results agree entry by entry. No algebraic law is needed beyond reading both sides at an index: the sums run over
  the same index sets in the same order, and the precondition (finite inputs) is not used.

The idealization rewrote no operation, so the kernel program at the extended reals is its own text (`preserves`).
-/

noncomputable section

namespace Cert.Proof

open Idealize.ShloMosaic Idealize.ShloMosaic.TcCoe Idealize.SL.Sem

/-- The two programs' message passings are one pair of functions: the same operations, in the same order, over
    shape records with the same fields. -/
theorem glue_eq : Cert.ReferenceIdeal.RefValue.glue = Cert.KernelIdeal.KGlue.glue := rfl

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run_after m ρ)
/-- The idealization rewrote no operation. -/
theorem preserves : Cert.preserves_Kernel_KernelIdeal := trivial

/-- From memories agreeing on the arguments both programs end with the result buffer at `Spec.out` of the
    arguments, over message passings that are one pair of functions. -/
theorem algebraic : Cert.algebraic_KernelIdeal_ReferenceIdeal := by
  intro m ρ m' ρ' _ hagree
  refine ⟨fun c => Cert.Spec.out Cert.KernelIdeal.KGlue.glue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KValue.W8_result m ρ c), (h c).2⟩)
      (Cert.KernelIdeal.KRun.run_result m ρ)
  · refine (θ_run Cert.ReferenceIdeal.defs _ _).mono (fun r h c => ⟨(h c).1.trans ?_, (h c).2⟩)
      (Cert.ReferenceIdeal.RefRun.run_after m' ρ')
    obtain ⟨e0, e1, e2, e3, e4, e5, e6, e7, e8, e9⟩ := hagree c
    rw [Cert.ReferenceIdeal.RefValue.value, glue_eq]
    exact congr (congr (congr (congr (congr (congr (congr (congr (congr (congrArg (Cert.Spec.out Cert.KernelIdeal.KGlue.glue) e0) e1) e2) e3) e4) e5) e6) e7) e8) e9

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
